-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096x64 : Shape := ⟨4, ![1, 16, 4096, 64]⟩
abbrev S_ : Shape := ⟨0, ![]⟩

class Facts : Prop where
  bcast_S_S1x16x4096x64 : S_.BroadcastsInDim S1x16x4096x64 (![] : Fin 0 → Fin S1x16x4096x64.rank)
  reducesTo_S1x16x4096x64_S_d0_1_2_3 : S1x16x4096x64.ReducesTo [0, 1, 2, 3] S_
  h_S_ : 0 < S_.numel

variable [Facts]

def fn {F : FTy → Type} [FloatOps F] (main_arg0 : FVec F S1x16x4096x64 .f32) (main_arg1 : FVec F S1x16x4096x64 .f32) (main_arg2 : FVec F S1x16x4096x64 .f32) : IVec S_ 1 :=
  let main_v0 : FVec F S1x16x4096x64 .f32 := Host.absf main_arg0
  let main_cst : FVec F S_ .f32 := constant S_ .f32 0x7F800000#32
  let main_v1 : FVec F S1x16x4096x64 .f32 := broadcastInDim S1x16x4096x64 ![] bcast_S_S1x16x4096x64 main_cst
  let main_v2 : IVec S1x16x4096x64 1 := cmpf .olt main_v0 main_v1
  let main_c : IVec S_ 1 := constantI S_ 1 1#1
  let main_v3 : IVec S_ 1 := (fun x v => Host.reduce IntOp.andi x v reducesTo_S1x16x4096x64_S_d0_1_2_3 h_S_) main_v2 main_c
  let main_v4 : FVec F S1x16x4096x64 .f32 := Host.absf main_arg1
  let main_cst_0 : FVec F S_ .f32 := constant S_ .f32 0x7F800000#32
  let main_v5 : FVec F S1x16x4096x64 .f32 := broadcastInDim S1x16x4096x64 ![] bcast_S_S1x16x4096x64 main_cst_0
  let main_v6 : IVec S1x16x4096x64 1 := cmpf .olt main_v4 main_v5
  let main_c_1 : IVec S_ 1 := constantI S_ 1 1#1
  let main_v7 : IVec S_ 1 := (fun x v => Host.reduce IntOp.andi x v reducesTo_S1x16x4096x64_S_d0_1_2_3 h_S_) main_v6 main_c_1
  let main_v8 : IVec S_ 1 := andi main_v3 main_v7
  let main_v9 : FVec F S1x16x4096x64 .f32 := Host.absf main_arg2
  let main_cst_2 : FVec F S_ .f32 := constant S_ .f32 0x7F800000#32
  let main_v10 : FVec F S1x16x4096x64 .f32 := broadcastInDim S1x16x4096x64 ![] bcast_S_S1x16x4096x64 main_cst_2
  let main_v11 : IVec S1x16x4096x64 1 := cmpf .olt main_v9 main_v10
  let main_c_3 : IVec S_ 1 := constantI S_ 1 1#1
  let main_v12 : IVec S_ 1 := (fun x v => Host.reduce IntOp.andi x v reducesTo_S1x16x4096x64_S_d0_1_2_3 h_S_) main_v11 main_c_3
  let main_v13 : IVec S_ 1 := andi main_v8 main_v12
  main_v13
-- ==== Kernel.lean ====
abbrev S1x16x4096x64 : Shape := ⟨4, ![1, 16, 4096, 64]⟩
abbrev S1x1x4096x64 : Shape := ⟨4, ![1, 1, 4096, 64]⟩
abbrev S4096x64 : Shape := ⟨2, ![4096, 64]⟩
abbrev S64 : Shape := ⟨1, ![64]⟩
abbrev S1x64 : Shape := ⟨2, ![1, 64]⟩
abbrev S64x64x64 : Shape := ⟨3, ![64, 64, 64]⟩
abbrev S64x64 : Shape := ⟨2, ![64, 64]⟩
abbrev S64x64x1 : Shape := ⟨3, ![64, 64, 1]⟩
abbrev S64x1x64 : Shape := ⟨3, ![64, 1, 64]⟩
abbrev S1x1x64 : Shape := ⟨3, ![1, 1, 64]⟩

abbrev nBuf : Space → Nat
  | .hbm => 4
  | .vmem => 8
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x4096x64, .f32⟩
  | .local _ .vmem, ⟨7, _⟩ => ⟨S1x1x4096x64, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  reduces_S4096x64_S64 : S4096x64.Reduces [0] S64
  shapeCasts_S64_S1x64 : S64.ShapeCasts S1x64
  shapeCasts_S4096x64_S64x64x64 : S4096x64.ShapeCasts S64x64x64
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  reduces_S64x64x64_S64x64_2 : S64x64x64.Reduces [1] S64x64
  shapeCasts_S64x64_S64x1x64 : S64x64.ShapeCasts S64x1x64
  shapeCasts_S1x64_S1x1x64 : S1x64.ShapeCasts S1x1x64
  broadcasts_S1x1x64_S64x1x64 : S1x1x64.Broadcasts S64x1x64
  broadcasts_S64x1x64_S64x64x64 : S64x1x64.Broadcasts S64x64x64
  shapeCasts_S64x64x64_S4096x64 : S64x64x64.ShapeCasts S4096x64
  shapeCasts_S4096x64_S1x1x4096x64 : S4096x64.ShapeCasts S1x1x4096x64
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S1x16x4096x64.size a
  hwx0_0 : ∀ i : grid0.Coords, EltTy.bits .f32 = 32 ∨ (Rect.block (s := S1x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S1x16x4096x64.size a
  hwx0_1 : ∀ i : grid0.Coords, EltTy.bits .f32 = 32 ∨ (Rect.block (s := S1x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S1x16x4096x64.size a
  hwx0_2 : ∀ i : grid0.Coords, EltTy.bits .f32 = 32 ∨ (Rect.block (s := S1x16x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x64.size a ≤ S1x16x4096x64.size a
  hwx0_3 : ∀ i : grid0.Coords, EltTy.bits .f32 = 32 ∨ (Rect.block (s := S1x16x4096x64) S1x1x4096x64.size (cc0_transform_3 i) (hinb0_3 i)).WholeWords (EltTy.packing .f32)

variable [Facts₀]

def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x4096x64 : Shape := ⟨4, ![1, 16, 4096, 64]⟩
abbrev S_ : Shape := ⟨0, ![]⟩
abbrev S1x16x4096x4096 : Shape := ⟨4, ![1, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S1x16x4096 : Shape := ⟨3, ![1, 16, 4096]⟩
abbrev S1x16x4096x1 : Shape := ⟨4, ![1, 16, 4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x4096x4096, .f32⟩
  | .hbm, ⟨8, _⟩ => ⟨S1x16x4096x4096, .f32⟩
  | .hbm, ⟨9, _⟩ => ⟨S1x16x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S4096x4096, .f32⟩
  | .hbm, ⟨35, _⟩ => ⟨S1x1x4096x4096, .f32⟩
  | .hbm, ⟨36, _⟩ => ⟨S1x16x4096x4096, .f32⟩
  | .hbm, ⟨37, _⟩ => ⟨S1x16x4096x4096, .f32⟩
  | .hbm, ⟨38, _⟩ => ⟨S_, .f32⟩
  | .hbm, ⟨39, _⟩ => ⟨S1x16x4096, .f32⟩
  | .hbm, ⟨40, _⟩ => ⟨S_, .f32⟩
  | .hbm, ⟨41, _⟩ => ⟨S1x16x4096, .f32⟩
  | .hbm, ⟨42, _⟩ => ⟨S1x16x4096, .f32⟩
  | .hbm, ⟨43, _⟩ => ⟨S1x16x4096x1, .f32⟩
  | .hbm, ⟨44, _⟩ => ⟨S1x16x4096x4096, .f32⟩
  | .hbm, ⟨45, _⟩ => ⟨S1x16x4096x4096, .f32⟩
  | .hbm, ⟨46, _⟩ => ⟨S1x16x4096x4096, .f32⟩
  | .hbm, ⟨47, _⟩ => ⟨S_, .f32⟩
  | .hbm, ⟨48, _⟩ => ⟨S1x16x4096, .f32⟩
  | .hbm, ⟨49, _⟩ => ⟨S1x16x4096x1, .f32⟩
  | .hbm, ⟨50, _⟩ => ⟨S1x16x4096x4096, .f32⟩
  | .hbm, ⟨51, _⟩ => ⟨S1x16x4096x4096, .f32⟩
  | .hbm, ⟨52, _⟩ => ⟨S1x16x4096x64, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]

class Facts₀ : Prop where
  bcast_S_S1x16x4096x4096 : S_.BroadcastsInDim S1x16x4096x4096 (![] : Fin 0 → Fin S1x16x4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S1x1x4096x4096_2_3 : S4096x4096.BroadcastsInDim S1x1x4096x4096 (![2, 3] : Fin 2 → Fin S1x1x4096x4096.rank)
  bcast_S1x1x4096x4096_S1x16x4096x4096_0_1_2_3 : S1x1x4096x4096.BroadcastsInDim S1x16x4096x4096 (![0, 1, 2, 3] : Fin 4 → Fin S1x16x4096x4096.rank)
  reducesTo_S1x16x4096x4096_S1x16x4096_d3 : S1x16x4096x4096.ReducesTo [3] S1x16x4096
  h_S_ : 0 < S_.numel
  bcast_S_S1x16x4096 : S_.BroadcastsInDim S1x16x4096 (![] : Fin 0 → Fin S1x16x4096.rank)
  bcast_S1x16x4096_S1x16x4096x1_0_1_2 : S1x16x4096.BroadcastsInDim S1x16x4096x1 (![0, 1, 2] : Fin 3 → Fin S1x16x4096x1.rank)
  bcast_S1x16x4096x1_S1x16x4096x4096_0_1_2_3 : S1x16x4096x1.BroadcastsInDim S1x16x4096x4096 (![0, 1, 2, 3] : Fin 4 → Fin S1x16x4096x4096.rank)
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]

variable [Facts₀]

def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf

class Facts : Prop extends Facts₀ where

variable [Facts]
-- ==== Proof.Spec.lean ====
/-
  Block-diagonal attention, written twice as a function of the three argument arrays Q, K, V of shape
  [1, 16 heads, 4096 positions, 64 features] over the extended reals.

  A position `s` lies in the block of 64 consecutive positions numbered `s / 64`. The score of a query position
  against a key position is their feature dot product times 1/8; outside the query's own block the score is
  multiplied by zero, inside by one.

  `fullOut` is the softmax over ALL 4096 key positions of the masked scores (the row maximum subtracted, the
  exponentials normalised by their sum), contracted with V.

  `blockOut` uses only the 64 key positions of the query's own block: with `m` the larger of the block's largest
  score and 0, each of the 4032 positions outside the block has masked score 0, hence weight `exp (0 - m)`; so the
  normaliser is the block's sum of exponentials plus 4032 such terms, and the numerator is the block's weighted sum
  of V plus `exp (0 - m)` times (the sum of V over all positions minus the sum of V over the block).

  The two are the same function when every entry of Q, K, V is a real number (`blockOut_eq_fullOut`, in the module
  that imports this one).
-/
import Idealize.ShloMosaic.PureOps.Ideal
import Idealize.ShloMosaic.Lib.ValueIdx

noncomputable section

namespace Cert.BlockAttn

open Idealize.ShloMosaic Idealize.ShloMosaic.ValueIdx

/-- An argument or result array: one extended real per (batch 0, head, position, feature). -/
abbrev Arr : Type := (⟨4, ![1, 16, 4096, 64]⟩ : Shape).Idx → EReal

/-- The entry of `X` at head `h`, position `s`, feature `e`. -/
def entry (X : Arr) (h : Fin 16) (s : Fin 4096) (e : Fin 64) : EReal := X (ix4 (0 : Fin 1) h s e)

/-- The `j`-th position of the block of 64 positions that holds `s`. -/
def inBlock (s : Fin 4096) (j : Fin 64) : Fin 4096 := ⟨64 * (s.val / 64) + j.val, by omega⟩

/-- The feature dot product of query position `s` and key position `k`, in head `h`. -/
def dotQK (Q K : Arr) (h : Fin 16) (s k : Fin 4096) : EReal := ∑ e : Fin 64, entry Q h s e * entry K h k e

/-- One inside the query's block, zero outside. -/
def mask (s k : Fin 4096) : EReal := if s.val / 64 = k.val / 64 then 1 else 0

/-! ## Softmax over all key positions -/

def fullScore (Q K : Arr) (h : Fin 16) (s k : Fin 4096) : EReal := dotQK Q K h s k * ((1 / 8 : ℝ) : EReal) * mask s k

def fullMax (Q K : Arr) (h : Fin 16) (s : Fin 4096) : EReal :=
  (Finset.univ : Finset (Fin 4096)).fold max ⊥ (fun k => fullScore Q K h s k)

def fullExp (Q K : Arr) (h : Fin 16) (s k : Fin 4096) : EReal := Ideal.exp (fullScore Q K h s k - fullMax Q K h s)

def fullOut (Q K V : Arr) (h : Fin 16) (s : Fin 4096) (d : Fin 64) : EReal :=
  ∑ k : Fin 4096, Ideal.div (fullExp Q K h s k) (∑ k' : Fin 4096, fullExp Q K h s k') * entry V h k d

/-- The reference's result array. -/
def fullArr (Q K V : Arr) : Arr := fun i => fullOut Q K V (i 1) (i 2) (i 3)

/-! ## The same from the query's own block only -/

def blockScore (Q K : Arr) (h : Fin 16) (s : Fin 4096) (j : Fin 64) : EReal := dotQK Q K h s (inBlock s j) * ((1 / 8 : ℝ) : EReal)

def blockMax (Q K : Arr) (h : Fin 16) (s : Fin 4096) : EReal :=
  max ((Finset.univ : Finset (Fin 64)).fold max ⊥ (fun j => blockScore Q K h s j)) 0

def blockExp (Q K : Arr) (h : Fin 16) (s : Fin 4096) (j : Fin 64) : EReal := Ideal.exp (blockScore Q K h s j - blockMax Q K h s)

/-- The weight of every key position outside the block. -/
def outsideExp (Q K : Arr) (h : Fin 16) (s : Fin 4096) : EReal := Ideal.exp (0 - blockMax Q K h s)

def blockOut (Q K V : Arr) (h : Fin 16) (s : Fin 4096) (d : Fin 64) : EReal :=
  Ideal.div
    ((∑ j : Fin 64, blockExp Q K h s j * entry V h (inBlock s j) d)
      + outsideExp Q K h s * ((∑ s' : Fin 4096, entry V h s' d) - ∑ j : Fin 64, entry V h (inBlock s j) d))
    ((∑ j : Fin 64, blockExp Q K h s j) + ((4032 : ℝ) : EReal) * outsideExp Q K h s)

/-- The kernel's result array. -/
def blockArr (Q K V : Arr) : Arr := fun i => blockOut Q K V (i 1) (i 2) (i 3)

end Cert.BlockAttn

end
-- ==== Proof.Consts.lean ====
/-
  The float literals the two programs spell, as the extended reals their bit patterns denote: 0, 1, 64, 1/8, 4032
  and minus infinity. Stated once here so that the modules that meet them unfold no pattern themselves.
-/
import Idealize.ShloMosaic.PureOps.Ideal

noncomputable section

namespace Cert.BlockAttn.Consts

open Idealize.ShloMosaic

/-- The pattern of `+0.0` denotes 0. -/
theorem ofBits_zero : Ideal.ofBits .f32 0x00000000#32 = 0 := by
  simp [Ideal.ofBits, Ideal.ieee]

/-- The pattern of `1.0` denotes 1. -/
theorem ofBits_one : Ideal.ofBits .f32 0x3F800000#32 = ((1 : ℝ) : EReal) := by
  simp [Ideal.ofBits, Ideal.ieee, -EReal.coe_mul]; norm_num

/-- The pattern of `64.0`, the feature count whose square root scales the scores, denotes 64. -/
theorem ofBits_64 : Ideal.ofBits .f32 0x42800000#32 = ((64 : ℝ) : EReal) := by
  simp [Ideal.ofBits, Ideal.ieee, -EReal.coe_mul]; norm_num

/-- The pattern of `0.125`, the score scale, denotes 1/8. -/
theorem ofBits_eighth : Ideal.ofBits .f32 0x3E000000#32 = ((1 / 8 : ℝ) : EReal) := by
  simp [Ideal.ofBits, Ideal.ieee, -EReal.coe_mul]; norm_num

/-- The pattern of `4032.0`, the number of key positions outside a block, denotes 4032. -/
theorem ofBits_4032 : Ideal.ofBits .f32 0x457C0000#32 = ((4032 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

end Cert.BlockAttn.Consts

end
-- ==== Proof.KerBlock.lean ====
/-
  One head's work, read at an index.

  A head's three blocks are [1, 1, 4096, 64] slabs of Q, K and V. The body regroups the 4096 positions as 64 blocks
  of 64 (position 64 b + r is row r of block b), forms the scores of each block against itself, and from them the
  row maximum, the exponentials, their row sum, the exponentials' product with the block's rows of V, and two column
  sums of V (over all positions, over one block). Each of these is read here at one index as a plain sum or a fold of
  max over 64 (or 4096) terms of the slabs' entries.
-/
import proofs.«118906_j13932873908639_2_alg».proof.Proof.Gen.KernelIdeal.Value
import proofs.«118906_j13932873908639_2_alg».proof.Proof.Spec
import proofs.«118906_j13932873908639_2_alg».proof.Proof.Consts
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Idealize.ShloMosaic Idealize.ShloMosaic.ValueIdx
open Cert.BlockAttn (Consts.ofBits_eighth Consts.ofBits_neg_inf Consts.ofBits_zero Consts.ofBits_4032)

/-- Row `r` of block `b`: position `64 b + r`. -/
def pos (b r : Fin 64) : Fin 4096 := ⟨64 * b.val + r.val, by omega⟩

/-- A slab regrouped into 64 blocks of 64 rows: its entry (b, r, e) is the slab's entry at position 64 b + r. -/
theorem regroup_apply (X : Vec Ideal S1x1x4096x64 .f32) (b r e : Fin 64) :
    shapeCast S64x64x64 (shapeCast S4096x64 X shapeCasts_S1x1x4096x64_S4096x64) shapeCasts_S4096x64_S64x64x64 (ix3 b r e)
      = X (ix4 (0 : Fin 1) (0 : Fin 1) (pos b r) e) := by
  refine (shapeCast_apply _ _ (ix3 b r e) (ix2 (pos b r) e) ?_).trans ?_
  · rw [Shape.rowMajor_val_two, Shape.rowMajor_val_three]
    show (64 * b.val + r.val) * 64 + e.val = (b.val * 64 + r.val) * 64 + e.val
    omega
  · refine shapeCast_apply _ _ (ix2 (pos b r) e) (ix4 (0 : Fin 1) (0 : Fin 1) (pos b r) e) ?_
    rw [Shape.rowMajor_val_four, Shape.rowMajor_val_two]
    show ((0 * 1 + 0) * 4096 + (64 * b.val + r.val)) * 64 + e.val = (64 * b.val + r.val) * 64 + e.val
    omega

/-- The scaled score of row `r` against row `j`, both of block `b`: the dot product over the 64 features of the Q slab
    at position 64 b + r and the K slab at position 64 b + j, times the scale literal. -/
theorem score_apply (Qb Kb : Vec Ideal S1x1x4096x64 .f32) (b r j : Fin 64) :
    k0_pay4 (F := Ideal) Qb Kb (ix3 b r j)
      = (∑ e : Fin 64, Qb (ix4 (0 : Fin 1) (0 : Fin 1) (pos b r) e) * Kb (ix4 (0 : Fin 1) (0 : Fin 1) (pos b j) e))
          * Ideal.ofBits .f32 0x3E000000#32 := by
  unfold k0_pay4
  refine congrArg (· * Ideal.ofBits .f32 0x3E000000#32) ?_
  refine (Ideal.matmul_constant_zero_apply dot_S64x64x64_S64x64x64_S64x64x64_2_2_1_1_0_0 none _ _ (ix3 b r j)).trans ?_
  rw [← Equiv.sum_comp (contrEquiv1 dot_S64x64x64_S64x64x64_S64x64x64_2_2_1_1_0_0 64 rfl rfl).symm]
  refine Finset.sum_congr rfl fun e _ => ?_
  have ce := contrEquiv1_symm_val dot_S64x64x64_S64x64x64_S64x64x64_2_2_1_1_0_0 64 rfl rfl e
  have hl : dot_S64x64x64_S64x64x64_S64x64x64_2_2_1_1_0_0.lhsIdx (ix3 b r j) ((contrEquiv1 _ 64 rfl rfl).symm e) = ix3 b r e := by
    funext ax; apply Fin.ext
    match ax with
    | ⟨0, _⟩ => simp [DotDims.lhsIdx, dot_S64x64x64_S64x64x64_S64x64x64_2_2_1_1_0_0]; rfl
    | ⟨1, _⟩ => simp [DotDims.lhsIdx, dot_S64x64x64_S64x64x64_S64x64x64_2_2_1_1_0_0]; rfl
    | ⟨2, _⟩ => simp [DotDims.lhsIdx, dot_S64x64x64_S64x64x64_S64x64x64_2_2_1_1_0_0]; exact ce
  have hr : dot_S64x64x64_S64x64x64_S64x64x64_2_2_1_1_0_0.rhsIdx (ix3 b r j) ((contrEquiv1 _ 64 rfl rfl).symm e) = ix3 b j e := by
    funext ax; apply Fin.ext
    match ax with
    | ⟨0, _⟩ => simp [DotDims.rhsIdx, dot_S64x64x64_S64x64x64_S64x64x64_2_2_1_1_0_0]; rfl
    | ⟨1, _⟩ => simp [DotDims.rhsIdx, dot_S64x64x64_S64x64x64_S64x64x64_2_2_1_1_0_0]; rfl
    | ⟨2, _⟩ => simp [DotDims.rhsIdx, dot_S64x64x64_S64x64x64_S64x64x64_2_2_1_1_0_0]; exact ce
  rw [hl, hr]
  exact congrArg₂ (· * ·) (regroup_apply Qb b r e) (regroup_apply Kb b j e)

/-- A row maximum over the last axis of a [64, 64, 64] array, from minus infinity: the fold of max over that row. -/
theorem rowMax_apply (X : FVec Ideal S64x64x64 .f32) (b r : Fin 64) :
    multiReduction .maximumf [2] S64x64 X 0xFF800000#32 reduces_S64x64x64_S64x64 (.inl rfl) rfl (ix2 b r)
      = (Finset.univ : Finset (Fin 64)).fold max (Ideal.ofBits .f32 0xFF800000#32) (fun j => X (ix3 b r j)) := by
  refine (Ideal.multiReduction_maximumf_single X _ reduces_S64x64x64_S64x64 _ _ (ix2 b r)).trans ?_
  have hf : (X ∘ reduces_S64x64x64_S64x64.lift (ix2 b r)) = (fun j : Fin 64 => X (ix3 b r j)) := by
    funext j
    exact congrArg X (funext fun a => Fin.ext (by match a with | ⟨0, _⟩ => rfl | ⟨1, _⟩ => rfl | ⟨2, _⟩ => rfl))
  rw [hf]
  rfl

/-- The column sum of a slab over all 4096 positions. -/
theorem sumAll_apply (Vb : Vec Ideal S1x1x4096x64 .f32) (d : Fin 64) :
    multiReduction (F := Ideal) .add [0] S64 (shapeCast S4096x64 Vb shapeCasts_S1x1x4096x64_S4096x64) 0x00000000#32 reduces_S4096x64_S64 (.inl rfl) rfl (ix1 d)
      = ∑ s' : Fin 4096, Vb (ix4 (0 : Fin 1) (0 : Fin 1) s' d) := by
  refine (Ideal.multiReduction_add_single _ _ reduces_S4096x64_S64 _ _ (ix1 d)).trans ?_
  refine Finset.sum_congr rfl fun s' _ => ?_
  have hi : reduces_S4096x64_S64.lift (ix1 d) s' = ix2 s' d :=
    funext fun a => Fin.ext (by match a with | ⟨0, _⟩ => rfl | ⟨1, _⟩ => rfl)
  rw [hi]
  refine shapeCast_apply _ _ (ix2 s' d) (ix4 (0 : Fin 1) (0 : Fin 1) s' d) ?_
  rw [Shape.rowMajor_val_four, Shape.rowMajor_val_two]
  show ((0 * 1 + 0) * 4096 + s'.val) * 64 + d.val = s'.val * 64 + d.val
  omega

/-- The column sum of a slab over the 64 positions of block `b`. -/
theorem sumBlock_apply (Vb : Vec Ideal S1x1x4096x64 .f32) (b d : Fin 64) :
    multiReduction (F := Ideal) .add [1] S64x64 (shapeCast S64x64x64 (shapeCast S4096x64 Vb shapeCasts_S1x1x4096x64_S4096x64) shapeCasts_S4096x64_S64x64x64)
        0x00000000#32 reduces_S64x64x64_S64x64_2 (.inl rfl) rfl (ix2 b d)
      = ∑ j : Fin 64, Vb (ix4 (0 : Fin 1) (0 : Fin 1) (pos b j) d) := by
  refine (Ideal.multiReduction_add_single _ _ reduces_S64x64x64_S64x64_2 _ _ (ix2 b d)).trans ?_
  refine Finset.sum_congr rfl fun j _ => ?_
  have hi : reduces_S64x64x64_S64x64_2.lift (ix2 b d) j = ix3 b j d :=
    funext fun a => Fin.ext (by match a with | ⟨0, _⟩ => rfl | ⟨1, _⟩ => rfl | ⟨2, _⟩ => rfl)
  rw [hi]
  exact regroup_apply Vb b j d

/-- The row maximum of the scores, floored at zero, as the body keeps it in a [64, 64, 1] column. -/
def rowTop (Qb Kb : Vec Ideal S1x1x4096x64 .f32) (b r : Fin 64) : EReal :=
  max (multiReduction .maximumf [2] S64x64 (k0_pay4 (F := Ideal) Qb Kb) 0xFF800000#32 reduces_S64x64x64_S64x64 (.inl rfl) rfl (ix2 b r))
    (Ideal.ofBits .f32 0x00000000#32)

/-- The exponential of a score less its row's floored maximum. -/
theorem expo_apply (Qb Kb : Vec Ideal S1x1x4096x64 .f32) (b r j : Fin 64) :
    k0_pay6 (F := Ideal) Qb Kb (ix3 b r j) = Ideal.exp (k0_pay4 (F := Ideal) Qb Kb (ix3 b r j) - rowTop Qb Kb b r) := by
  unfold k0_pay6 k0_pay5 rowTop
  refine congrArg Ideal.exp (congrArg (k0_pay4 (F := Ideal) Qb Kb (ix3 b r j) - ·) ?_)
  refine (broadcastTo_apply _ _ (ix3 b r j) (ix3 b r (0 : Fin 1)) ?_).trans ?_
  · intro a
    match a with
    | ⟨0, _⟩ => show b.val = (if (64 : Nat) = 1 then 0 else b.val); rw [if_neg (by decide)]
    | ⟨1, _⟩ => show r.val = (if (64 : Nat) = 1 then 0 else r.val); rw [if_neg (by decide)]
    | ⟨2, _⟩ => show 0 = (if (1 : Nat) = 1 then 0 else j.val); rw [if_pos rfl]
  · refine congrArg (max · (Ideal.ofBits .f32 0x00000000#32)) ?_
    refine shapeCast_apply _ _ (ix3 b r (0 : Fin 1)) (ix2 b r) ?_
    rw [Shape.rowMajor_val_two, Shape.rowMajor_val_three]
    show b.val * 64 + r.val = (b.val * 64 + r.val) * 1 + 0
    omega

/-- The exponentials of row `r` of block `b` against the block's 64 rows of V: the weighted sum of those rows. -/
theorem weighted_apply (Vb Qb Kb : Vec Ideal S1x1x4096x64 .f32) (b r d : Fin 64) :
    k0_pay10 (F := Ideal) Vb Qb Kb (ix3 b r d)
      = ∑ j : Fin 64, k0_pay6 (F := Ideal) Qb Kb (ix3 b r j) * Vb (ix4 (0 : Fin 1) (0 : Fin 1) (pos b j) d) := by
  unfold k0_pay10
  refine (Ideal.matmul_constant_zero_apply dot_S64x64x64_S64x64x64_S64x64x64_2_1_1_2_0_0 none _ _ (ix3 b r d)).trans ?_
  rw [← Equiv.sum_comp (contrEquiv1 dot_S64x64x64_S64x64x64_S64x64x64_2_1_1_2_0_0 64 rfl rfl).symm]
  refine Finset.sum_congr rfl fun j _ => ?_
  have ce := contrEquiv1_symm_val dot_S64x64x64_S64x64x64_S64x64x64_2_1_1_2_0_0 64 rfl rfl j
  have hl : dot_S64x64x64_S64x64x64_S64x64x64_2_1_1_2_0_0.lhsIdx (ix3 b r d) ((contrEquiv1 _ 64 rfl rfl).symm j) = ix3 b r j := by
    funext ax; apply Fin.ext
    match ax with
    | ⟨0, _⟩ => simp [DotDims.lhsIdx, dot_S64x64x64_S64x64x64_S64x64x64_2_1_1_2_0_0]; rfl
    | ⟨1, _⟩ => simp [DotDims.lhsIdx, dot_S64x64x64_S64x64x64_S64x64x64_2_1_1_2_0_0]; rfl
    | ⟨2, _⟩ => simp [DotDims.lhsIdx, dot_S64x64x64_S64x64x64_S64x64x64_2_1_1_2_0_0]; exact ce
  have hr : dot_S64x64x64_S64x64x64_S64x64x64_2_1_1_2_0_0.rhsIdx (ix3 b r d) ((contrEquiv1 _ 64 rfl rfl).symm j) = ix3 b j d := by
    funext ax; apply Fin.ext
    match ax with
    | ⟨0, _⟩ => simp [DotDims.rhsIdx, dot_S64x64x64_S64x64x64_S64x64x64_2_1_1_2_0_0]; rfl
    | ⟨1, _⟩ => simp [DotDims.rhsIdx, dot_S64x64x64_S64x64x64_S64x64x64_2_1_1_2_0_0]; exact ce
    | ⟨2, _⟩ => simp [DotDims.rhsIdx, dot_S64x64x64_S64x64x64_S64x64x64_2_1_1_2_0_0]; rfl
  rw [hl, hr]
  exact congrArg (k0_pay6 (F := Ideal) Qb Kb (ix3 b r j) * ·) (regroup_apply Vb b j d)

/-- A row sum over the last axis of a [64, 64, 64] array. -/
theorem rowSum_apply (X : FVec Ideal S64x64x64 .f32) (b r : Fin 64) :
    multiReduction .add [2] S64x64 X 0x00000000#32 reduces_S64x64x64_S64x64 (.inl rfl) rfl (ix2 b r)
      = ∑ j : Fin 64, X (ix3 b r j) := by
  refine (Ideal.multiReduction_add_single X _ reduces_S64x64x64_S64x64 _ _ (ix2 b r)).trans ?_
  refine Finset.sum_congr rfl fun j _ => ?_
  exact congrArg X (funext fun a => Fin.ext (by match a with | ⟨0, _⟩ => rfl | ⟨1, _⟩ => rfl | ⟨2, _⟩ => rfl))

open Cert.BlockAttn in
/-- What the body leaves at position `s`, feature `d` of its output slab, when its three input slabs are head `h` of
    the arrays Q, K, V: the block form of the attention output. -/
theorem block_apply (Q K V : Arr) (h : Fin 16) (Qb Kb Vb : Vec Ideal S1x1x4096x64 .f32)
    (hQ : ∀ (s : Fin 4096) (e : Fin 64), Qb (ix4 (0 : Fin 1) (0 : Fin 1) s e) = entry Q h s e)
    (hK : ∀ (s : Fin 4096) (e : Fin 64), Kb (ix4 (0 : Fin 1) (0 : Fin 1) s e) = entry K h s e)
    (hV : ∀ (s : Fin 4096) (e : Fin 64), Vb (ix4 (0 : Fin 1) (0 : Fin 1) s e) = entry V h s e)
    (s : Fin 4096) (d : Fin 64) :
    Cert.KernelIdeal.Value.E3 (F := Ideal) Vb Qb Kb (ix4 (0 : Fin 1) (0 : Fin 1) s d) = blockOut Q K V h s d := by
  have hs : s.val < 4096 := s.isLt
  let b : Fin 64 := ⟨s.val / 64, by omega⟩
  let r : Fin 64 := ⟨s.val % 64, by omega⟩
  have hpos : pos b r = s := Fin.ext (by show 64 * (s.val / 64) + s.val % 64 = s.val; omega)
  have hin : ∀ j : Fin 64, inBlock s j = pos b j := fun _ => rfl
  have hscore : ∀ j : Fin 64, k0_pay4 (F := Ideal) Qb Kb (ix3 b r j) = blockScore Q K h s j := by
    intro j
    rw [score_apply, Consts.ofBits_eighth, hpos]
    unfold blockScore dotQK
    rw [hin j]
    exact congrArg (· * ((1 / 8 : ℝ) : EReal)) (Finset.sum_congr rfl fun e _ => by rw [hQ, hK])
  have htop : rowTop Qb Kb b r = blockMax Q K h s := by
    unfold rowTop blockMax
    rw [rowMax_apply, Consts.ofBits_neg_inf, Consts.ofBits_zero]
    simp only [hscore]
  have hexp : ∀ j : Fin 64, k0_pay6 (F := Ideal) Qb Kb (ix3 b r j) = blockExp Q K h s j := by
    intro j
    rw [expo_apply, hscore, htop]
    rfl
  have hout : Ideal.exp (Ideal.ofBits .f32 0x00000000#32 - rowTop Qb Kb b r) = outsideExp Q K h s := by
    rw [htop, Consts.ofBits_zero]; rfl
  have i0 : Cert.KernelIdeal.Value.ix3_0 (ix4 (0 : Fin 1) (0 : Fin 1) s d) = ix3 b r d :=
    funext fun a => Fin.ext (by match a with | ⟨0, _⟩ => rfl | ⟨1, _⟩ => rfl | ⟨2, _⟩ => rfl)
  have i1 : Cert.KernelIdeal.Value.ix3_1 (ix4 (0 : Fin 1) (0 : Fin 1) s d) = ix2 b r :=
    funext fun a => Fin.ext (by match a with | ⟨0, _⟩ => rfl | ⟨1, _⟩ => rfl)
  have i2 : Cert.KernelIdeal.Value.ix3_2 (ix4 (0 : Fin 1) (0 : Fin 1) s d) = ix1 d :=
    funext fun a => Fin.ext (by match a with | ⟨0, _⟩ => rfl)
  have i3 : Cert.KernelIdeal.Value.ix3_3 (ix4 (0 : Fin 1) (0 : Fin 1) s d) = ix2 b d :=
    funext fun a => Fin.ext (by match a with | ⟨0, _⟩ => rfl | ⟨1, _⟩ => rfl)
  have i4 : Cert.KernelIdeal.Value.ix3_4 (ix4 (0 : Fin 1) (0 : Fin 1) s d) = ix2 b r :=
    funext fun a => Fin.ext (by match a with | ⟨0, _⟩ => rfl | ⟨1, _⟩ => rfl)
  have i5 : Cert.KernelIdeal.Value.ix3_5 (ix4 (0 : Fin 1) (0 : Fin 1) s d) = ix2 b r :=
    funext fun a => Fin.ext (by match a with | ⟨0, _⟩ => rfl | ⟨1, _⟩ => rfl)
  unfold blockOut
  refine congrArg₂ Ideal.div (congrArg₂ (· + ·) ?_ (congrArg₂ (· * ·) ?_ (congrArg₂ (· - ·) ?_ ?_)))
    (congrArg₂ (· + ·) ?_ (congrArg₂ (· * ·) ?_ ?_))
  · rw [i0]
    refine (weighted_apply Vb Qb Kb b r d).trans (Finset.sum_congr rfl fun j _ => ?_)
    rw [hexp j, hV, hin j]
  · rw [i1]; exact hout
  · rw [i2]
    exact (sumAll_apply Vb d).trans (Finset.sum_congr rfl fun s' _ => hV s' d)
  · rw [i3]
    refine (sumBlock_apply Vb b d).trans (Finset.sum_congr rfl fun j _ => ?_)
    rw [hV, hin j]
  · rw [i4]
    exact (rowSum_apply (k0_pay6 (F := Ideal) Qb Kb) b r).trans (Finset.sum_congr rfl fun j _ => hexp j)
  · exact Consts.ofBits_4032
  · rw [i5]; exact hout

end Cert.KernelIdeal.BlockValue

end
-- ==== Proof.KerArray.lean ====
/-
  From one head's block to the whole result array.

  The grid has one point per head: point `t` stages head `t` of Q, K and V (block index (0, t, 0, 0) of each array,
  block size [1, 1, 4096, 64]) and writes back head `t` of the result. So what point `t` writes is the block form of
  the attention output for head `t`, the sixteen blocks tile the result array, and the array after the run is the
  block form at every index.
-/
import proofs.«118906_j13932873908639_2_alg».proof.Proof.KerBlock

noncomputable section

namespace Cert.KernelIdeal.ArrayValue

open Cert.KernelIdeal Cert.KernelIdeal.Gen Idealize.ShloMosaic Idealize.ShloMosaic.TcCoe Idealize.SL.Sem
open Idealize.ShloMosaic.ValueIdx Cert.BlockAttn
open Idealize.ShloMosaic.Pipeline (Dat)

variable (m : (ℓ : Loc nD τ sig) → Buf (Elt Ideal) ℓ) (ρ : Dev nD → PrngReg)

/-- The whole-block rectangle starts at the origin. -/
theorem origin_zero : (![0, 0, 0, 0] : Fin 4 → Nat) = fun _ => 0 := funext fun a => by fin_cases a <;> rfl

/-- The four index maps, decided over the sixteen grid points: block (0, t, 0, 0) for every window. -/
theorem index_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0) :=
  (by decide +kernel : ∀ t : Fin grid0.N, _)

/-- The head a grid point works on. -/
def headOf (t : Fin cfg0.N) : Fin 16 := ⟨t.val, by have := t.isLt; have hN : cfg0.N = 16 := Gen.N_0; omega⟩

/-- The staged block of input window 0 (Q) at point `t` is head `t` of the argument array. -/
theorem blockQ (c : Dev nD) (t : Fin cfg0.N) (s : Fin 4096) (e : Fin 64) :
    iblk m c 0 t (ix4 (0 : Fin 1) (0 : Fin 1) s e) = entry (m ((c : Thread nD τ).loc main_arg0)) (headOf t) s e := by
  obtain ⟨⟨e0, e1, e2, e3⟩, -, -, -⟩ := index_facts t
  show V m c main_arg0 (((cfg0.win 0).blk t).view.emb (ix4 (0 : Fin 1) (0 : Fin 1) s e)) = V m c main_arg0 (ix4 (0 : Fin 1) (headOf t) s e)
  refine congrArg (V m c main_arg0) (funext fun a => Fin.ext ?_)
  match a with
  | ⟨0, _⟩ => show win0_0.index t (0 : Fin 4) * 1 + 1 * 0 = 0; omega
  | ⟨1, _⟩ => show win0_0.index t (1 : Fin 4) * 1 + 1 * 0 = t.val; omega
  | ⟨2, _⟩ => show win0_0.index t (2 : Fin 4) * 4096 + 1 * s.val = s.val; omega
  | ⟨3, _⟩ => show win0_0.index t (3 : Fin 4) * 64 + 1 * e.val = e.val; omega

/-- The staged block of input window 1 (K) at point `t` is head `t` of the argument array. -/
theorem blockK (c : Dev nD) (t : Fin cfg0.N) (s : Fin 4096) (e : Fin 64) :
    iblk m c 1 t (ix4 (0 : Fin 1) (0 : Fin 1) s e) = entry (m ((c : Thread nD τ).loc main_arg1)) (headOf t) s e := by
  obtain ⟨-, ⟨e0, e1, e2, e3⟩, -, -⟩ := index_facts t
  show V m c main_arg1 (((cfg0.win 1).blk t).view.emb (ix4 (0 : Fin 1) (0 : Fin 1) s e)) = V m c main_arg1 (ix4 (0 : Fin 1) (headOf t) s e)
  refine congrArg (V m c main_arg1) (funext fun a => Fin.ext ?_)
  match a with
  | ⟨0, _⟩ => show win0_1.index t (0 : Fin 4) * 1 + 1 * 0 = 0; omega
  | ⟨1, _⟩ => show win0_1.index t (1 : Fin 4) * 1 + 1 * 0 = t.val; omega
  | ⟨2, _⟩ => show win0_1.index t (2 : Fin 4) * 4096 + 1 * s.val = s.val; omega
  | ⟨3, _⟩ => show win0_1.index t (3 : Fin 4) * 64 + 1 * e.val = e.val; omega

/-- The staged block of input window 2 (V) at point `t` is head `t` of the argument array. -/
theorem blockV (c : Dev nD) (t : Fin cfg0.N) (s : Fin 4096) (e : Fin 64) :
    iblk m c 2 t (ix4 (0 : Fin 1) (0 : Fin 1) s e) = entry (m ((c : Thread nD τ).loc main_arg2)) (headOf t) s e := by
  obtain ⟨-, -, ⟨e0, e1, e2, e3⟩, -⟩ := index_facts t
  show V m c main_arg2 (((cfg0.win 2).blk t).view.emb (ix4 (0 : Fin 1) (0 : Fin 1) s e)) = V m c main_arg2 (ix4 (0 : Fin 1) (headOf t) s e)
  refine congrArg (V m c main_arg2) (funext fun a => Fin.ext ?_)
  match a with
  | ⟨0, _⟩ => show win0_2.index t (0 : Fin 4) * 1 + 1 * 0 = 0; omega
  | ⟨1, _⟩ => show win0_2.index t (1 : Fin 4) * 1 + 1 * 0 = t.val; omega
  | ⟨2, _⟩ => show win0_2.index t (2 : Fin 4) * 4096 + 1 * s.val = s.val; omega
  | ⟨3, _⟩ => show win0_2.index t (3 : Fin 4) * 64 + 1 * e.val = e.val; omega

/-- What grid point `t` writes back is head `t` of the block form of the attention output of the argument arrays. -/
theorem flushed_eq (c : Dev nD) (t : Fin cfg0.N) :
    (dats m 0 c).flushed 3 t = ((cfg0.win 3).blk t).view.read (Elt Ideal)
      (blockArr (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  simp only [View.ld_unit_zero (S := S1x1x4096x64) origin_zero]
  funext j
  obtain ⟨z0, z1, s, d, rfl⟩ : ∃ (z0 z1 : Fin 1) (s : Fin 4096) (d : Fin 64), j = ix4 z0 z1 s d := ⟨j 0, j 1, j 2, j 3, eq_ix4 j⟩
  obtain rfl : z0 = 0 := Subsingleton.elim _ _
  obtain rfl : z1 = 0 := Subsingleton.elim _ _
  obtain ⟨-, -, -, ⟨e0, e1, e2, e3⟩⟩ := index_facts t
  show View.canon ([⟨r0_0, k0_pay1 (F := Ideal) (k0_pay7 (iblk m c 0 t) (iblk m c 1 t)) (k0_pay8 (iblk m c 2 t)) (k0_pay9 (iblk m c 0 t) (iblk m c 1 t))
        (k0_pay10 (iblk m c 2 t) (iblk m c 0 t) (iblk m c 1 t)) (k0_pay11 (iblk m c 2 t))⟩] : List (View.Piece (Elt Ideal) S1x1x4096x64 .f32)) (ix4 (0 : Fin 1) (0 : Fin 1) s d)
      = blockArr (m ((c : Thread nD τ).loc main_arg0)) (m ((c : Thread nD τ).loc main_arg1)) (m ((c : Thread nD τ).loc main_arg2))
          (((cfg0.win 3).blk t).view.emb (ix4 (0 : Fin 1) (0 : Fin 1) s d))
  refine (Cert.KernelIdeal.Value.canon3_eq (iblk m c 2 t) (iblk m c 0 t) (iblk m c 1 t) (ix4 (0 : Fin 1) (0 : Fin 1) s d)).trans ?_
  refine (Cert.KernelIdeal.BlockValue.block_apply (m ((c : Thread nD τ).loc main_arg0)) (m ((c : Thread nD τ).loc main_arg1))
    (m ((c : Thread nD τ).loc main_arg2)) (headOf t) (iblk m c 0 t) (iblk m c 1 t) (iblk m c 2 t)
    (blockQ m c t) (blockK m c t) (blockV m c t) s d).trans ?_
  unfold blockArr
  have a1 : (((cfg0.win 3).blk t).view.emb (ix4 (0 : Fin 1) (0 : Fin 1) s d) 1 : Fin 16) = headOf t :=
    Fin.ext (by show win0_3.index t (1 : Fin 4) * 1 + 1 * 0 = t.val; omega)
  have a2 : (((cfg0.win 3).blk t).view.emb (ix4 (0 : Fin 1) (0 : Fin 1) s d) 2 : Fin 4096) = s :=
    Fin.ext (by show win0_3.index t (2 : Fin 4) * 4096 + 1 * s.val = s.val; omega)
  have a3 : (((cfg0.win 3).blk t).view.emb (ix4 (0 : Fin 1) (0 : Fin 1) s d) 3 : Fin 64) = d :=
    Fin.ext (by show win0_3.index t (3 : Fin 4) * 64 + 1 * d.val = d.val; omega)
  show blockOut _ _ _ (headOf t) s d = blockOut _ _ _ (((cfg0.win 3).blk t).view.emb (ix4 (0 : Fin 1) (0 : Fin 1) s d) 1 : Fin 16)
    (((cfg0.win 3).blk t).view.emb (ix4 (0 : Fin 1) (0 : Fin 1) s d) 2 : Fin 4096) (((cfg0.win 3).blk t).view.emb (ix4 (0 : Fin 1) (0 : Fin 1) s d) 3 : Fin 64)
  rw [a1, a2, a3]

/-- An index of the result array is in point `t`'s block iff each coordinate is in the block's range on its axis. -/
theorem mem_blk (t : Fin cfg0.N) (i : S1x16x4096x64.Idx) :
    i ∈ ((cfg0.win 3).blk t).view.set ↔ ∀ a : Fin 4, win0_3.index t a * S1x1x4096x64.size a ≤ (i a).val
      ∧ (i a).val < win0_3.index t a * S1x1x4096x64.size a + S1x1x4096x64.size a := by
  show i ∈ ((View.whole main_v0).slice (win0_3.rect t)).set ↔ _
  rw [View.set_slice_whole, Rect.mem_set_unit]
  exact Iff.rfl

/-- Every index of the result array lies in the block of the grid point numbered by its head coordinate. -/
theorem cover (i : S1x16x4096x64.Idx) : ∃ t : Fin cfg0.N, (cfg0.win 3).flush t = true ∧ i ∈ ((cfg0.win 3).blk t).view.set := by
  have h0 : (i 0).val < 1 := (i 0).isLt
  have h1 : (i 1).val < 16 := (i 1).isLt
  have h2 : (i 2).val < 4096 := (i 2).isLt
  have h3 : (i 3).val < 64 := (i 3).isLt
  have hN : cfg0.N = 16 := Gen.N_0
  obtain ⟨t, ht⟩ : ∃ t : Fin cfg0.N, t.val = (i 1).val := ⟨⟨(i 1).val, by omega⟩, rfl⟩
  obtain ⟨-, -, -, ⟨e0, e1, e2, e3⟩⟩ := index_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- The result array after the run is the block form of the attention output of the argument arrays. -/
theorem final (c : Dev nD) : (dats m 0 c).arrAt 3 cfg0.N
    = blockArr (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the idealized kernel terminates with the result array at the block form of the
    attention output of the argument arrays, and the arguments unchanged. -/
theorem run : θ_run defs (onTc (τ := τ) (main (F := Ideal))) ⟨m, fun _ => 0, ρ⟩ fun r => ∀ c : Dev nD,
      r.2.mem ((c : Thread nD τ).loc main_v0)
        = blockArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.ArrayValue

end
-- ==== Proof.RefRun.lean ====
/-
  The reference program's run. Its @main is a straight line of fifty host operations once the two
  module-local functions (the floor division of the position index by 64, and the select it ends in) are
  unfolded at their call site; every weakly fair execution terminates with the result buffer at the
  operations' composed term of the three arguments, and the arguments unchanged.

  The composed term is written in stages named after what they compute: the scale 1/√64, the scaled
  scores, the block number of a position, the block mask, the masked scores, their row maximum, the
  exponentials, their row sum, the weights, and the contraction with the third argument.
-/
import proofs.«118906_j13932873908639_2_alg».proof.Proof.Gen.ReferenceIdeal
import Idealize.ShloMosaic.Lib.StableHlo.Run

noncomputable section

namespace Cert.ReferenceIdeal.Attn

open Cert.ReferenceIdeal Cert.ReferenceIdeal.Facts₀ Idealize.ShloMosaic Idealize.ShloMosaic.TcCoe Idealize.SL.Sem
  Idealize.ShloMosaic.StableHlo

variable {F : FTy → Type} [FloatOps F]

/-! ## The composed term, in stages -/

/-- The scalar 1/√64. -/
def scale : FVec F S_ .f32 :=
  Host.divf (constant S_ .f32 0x3F800000#32) (Host.sqrt (constant S_ .f32 0x42800000#32))

/-- The feature dot products of every query position with every key position, times the scale. -/
def scores (a0 a1 : FVec F S1x16x4096x64 .f32) : FVec F S1x16x4096x4096 .f32 :=
  mulf (Host.dotGeneral dot_S1x16x4096x64_S1x16x4096x64_S1x16x4096x4096_3_3_2_2_01_01 none a0 a1)
    (broadcastInDim S1x16x4096x4096 ![] bcast_S_S1x16x4096x4096 scale)

/-- The positions 0 … 4095 as 32-bit words. -/
def pos : IVec S4096 32 := iotaInDim S4096 32 0

/-- The divisor 64 at every position. -/
def divisor : IVec S4096 32 := broadcastInDim S4096 ![] bcast_S_S4096 (id (constantI S_ 32 64#32))

/-- The quotient of a position by 64, rounded toward zero. -/
def quot : IVec S4096 32 := Host.divsi pos divisor

/-- Whether the position's sign differs from the divisor's. -/
def signsDiffer : IVec S4096 1 :=
  cmpi .ne (signi pos) (broadcastInDim S4096 ![] bcast_S_S4096 (signi (id (constantI S_ 32 64#32))))

/-- Whether the remainder of the position by 64 is not zero. -/
def remNonzero : IVec S4096 1 :=
  cmpi .ne (Host.remsi pos divisor) (broadcastInDim S4096 ![] bcast_S_S4096 (constantI S_ 32 0#32))

/-- The floor of a position divided by 64: the quotient, less one where the signs differ and the
    remainder is not zero. -/
def blockIdx : IVec S4096 32 :=
  select (andi signsDiffer remNonzero)
    (subi quot (broadcastInDim S4096 ![] bcast_S_S4096 (constantI S_ 32 1#32))) quot

/-- Whether a query position and a key position have the same block number. -/
def sameBlock : IVec S4096x4096 1 :=
  cmpi .eq
    (broadcastInDim S4096x4096 ![0, 1] bcast_S4096x1_S4096x4096_0_1
      (broadcastInDim S4096x1 ![0] bcast_S4096_S4096x1_0 blockIdx))
    (broadcastInDim S4096x4096 ![0, 1] bcast_S1x4096_S4096x4096_0_1
      (broadcastInDim S1x4096 ![1] bcast_S4096_S1x4096_1 blockIdx))

/-- The block mask as a float array over every head. -/
def maskArr : FVec F S1x16x4096x4096 .f32 :=
  broadcastInDim S1x16x4096x4096 ![0, 1, 2, 3] bcast_S1x1x4096x4096_S1x16x4096x4096_0_1_2_3
    (broadcastInDim S1x1x4096x4096 ![2, 3] bcast_S4096x4096_S1x1x4096x4096_2_3 (uitofp .f32 sameBlock))

/-- The scores times the mask. -/
def masked (a0 a1 : FVec F S1x16x4096x64 .f32) : FVec F S1x16x4096x4096 .f32 := mulf (scores a0 a1) maskArr

/-- The largest masked score of each query position. -/
def rowMax (a0 a1 : FVec F S1x16x4096x64 .f32) : FVec F S1x16x4096 .f32 :=
  maximumf (broadcastInDim S1x16x4096 ![] bcast_S_S1x16x4096 (constant S_ .f32 0xFF800000#32))
    (Host.reduce FloatOps.maximumf (masked a0 a1) (constant S_ .f32 0xFF800000#32)
      reducesTo_S1x16x4096x4096_S1x16x4096_d3 h_S_)

/-- The exponentials of the masked scores less their row maximum. -/
def expArr (a0 a1 : FVec F S1x16x4096x64 .f32) : FVec F S1x16x4096x4096 .f32 :=
  Host.exp (subf (masked a0 a1)
    (broadcastInDim S1x16x4096x4096 ![0, 1, 2, 3] bcast_S1x16x4096x1_S1x16x4096x4096_0_1_2_3
      (broadcastInDim S1x16x4096x1 ![0, 1, 2] bcast_S1x16x4096_S1x16x4096x1_0_1_2 (rowMax a0 a1))))

/-- The sum of the exponentials of each query position. -/
def rowSum (a0 a1 : FVec F S1x16x4096x64 .f32) : FVec F S1x16x4096 .f32 :=
  Host.reduceAdd (expArr a0 a1) (constant S_ .f32 0x00000000#32) reducesTo_S1x16x4096x4096_S1x16x4096_d3 h_S_

/-- The softmax weights. -/
def weights (a0 a1 : FVec F S1x16x4096x64 .f32) : FVec F S1x16x4096x4096 .f32 :=
  Host.divf (expArr a0 a1)
    (broadcastInDim S1x16x4096x4096 ![0, 1, 2, 3] bcast_S1x16x4096x1_S1x16x4096x4096_0_1_2_3
      (broadcastInDim S1x16x4096x1 ![0, 1, 2] bcast_S1x16x4096_S1x16x4096x1_0_1_2 (rowSum a0 a1)))

/-- The reference's result as a function of its three arguments. -/
def refTerm (a0 a1 a2 : FVec F S1x16x4096x64 .f32) : FVec F S1x16x4096x64 .f32 :=
  Host.dotGeneral dot_S1x16x4096x4096_S1x16x4096x64_S1x16x4096x64_3_2_2_3_01_01 none (weights a0 a1) a2

/-! ## The run -/

/-- @main's operations in order, the call of the floor division unfolded: nine operations, the
    seventeen of the floor division (its select the last), and the twenty-four after it. -/
abbrev ops : List (HloOp τ sig (Elt F)) :=
  [ nullary main_cst (constant S_ .f32 0x42800000#32),
    unary main_cst main_v0 (Host.sqrt : (⟨S_, .f32⟩ : BufTy).Contents (Elt F) → (⟨S_, .f32⟩ : BufTy).Contents (Elt F)),
    nullary main_cst_0 (constant S_ .f32 0x3F800000#32),
    binary main_cst_0 main_v0 main_v1 (Host.divf : (⟨S_, .f32⟩ : BufTy).Contents (Elt F) → (⟨S_, .f32⟩ : BufTy).Contents (Elt F) → (⟨S_, .f32⟩ : BufTy).Contents (Elt F)),
    binary main_arg0 main_arg1 main_v2 ((fun l r => Host.dotGeneral dot_S1x16x4096x64_S1x16x4096x64_S1x16x4096x4096_3_3_2_2_01_01 none l r) : (⟨S1x16x4096x64, .f32⟩ : BufTy).Contents (Elt F) → (⟨S1x16x4096x64, .f32⟩ : BufTy).Contents (Elt F) → (⟨S1x16x4096x4096, .f32⟩ : BufTy).Contents (Elt F)),
    unary main_v1 main_v3 (broadcastInDim S1x16x4096x4096 ![] bcast_S_S1x16x4096x4096 : (⟨S_, .f32⟩ : BufTy).Contents (Elt F) → (⟨S1x16x4096x4096, .f32⟩ : BufTy).Contents (Elt F)),
    binary main_v2 main_v3 main_v4 (mulf : (⟨S1x16x4096x4096, .f32⟩ : BufTy).Contents (Elt F) → (⟨S1x16x4096x4096, .f32⟩ : BufTy).Contents (Elt F) → (⟨S1x16x4096x4096, .f32⟩ : BufTy).Contents (Elt F)),
    nullary main_v5 (iotaInDim S4096 32 0),
    nullary main_c (constantI S_ 32 64#32),
    TRef.unary (.of main_c) main_call0.v0 id,
    TRef.unary main_call0.v0 main_call0.v1 (broadcastInDim S4096 ![] bcast_S_S4096),
    TRef.binary (.of main_v5) main_call0.v1 main_call0.v2 Host.divsi,
    TRef.unary (.of main_v5) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v5) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    unary main_v6 main_v7 (broadcastInDim S4096x1 ![0] bcast_S4096_S4096x1_0 : (⟨S4096, .i32⟩ : BufTy).Contents (Elt F) → (⟨S4096x1, .i32⟩ : BufTy).Contents (Elt F)),
    unary main_v6 main_v8 (broadcastInDim S1x4096 ![1] bcast_S4096_S1x4096_1 : (⟨S4096, .i32⟩ : BufTy).Contents (Elt F) → (⟨S1x4096, .i32⟩ : BufTy).Contents (Elt F)),
    unary main_v7 main_v9 (broadcastInDim S4096x4096 ![0, 1] bcast_S4096x1_S4096x4096_0_1 : (⟨S4096x1, .i32⟩ : BufTy).Contents (Elt F) → (⟨S4096x4096, .i32⟩ : BufTy).Contents (Elt F)),
    unary main_v8 main_v10 (broadcastInDim S4096x4096 ![0, 1] bcast_S1x4096_S4096x4096_0_1 : (⟨S1x4096, .i32⟩ : BufTy).Contents (Elt F) → (⟨S4096x4096, .i32⟩ : BufTy).Contents (Elt F)),
    binary main_v9 main_v10 main_v11 (cmpi .eq : (⟨S4096x4096, .i32⟩ : BufTy).Contents (Elt F) → (⟨S4096x4096, .i32⟩ : BufTy).Contents (Elt F) → (⟨S4096x4096, .i1⟩ : BufTy).Contents (Elt F)),
    unary main_v11 main_v12 (uitofp .f32 : (⟨S4096x4096, .i1⟩ : BufTy).Contents (Elt F) → (⟨S4096x4096, .f32⟩ : BufTy).Contents (Elt F)),
    unary main_v12 main_v13 (broadcastInDim S1x1x4096x4096 ![2, 3] bcast_S4096x4096_S1x1x4096x4096_2_3 : (⟨S4096x4096, .f32⟩ : BufTy).Contents (Elt F) → (⟨S1x1x4096x4096, .f32⟩ : BufTy).Contents (Elt F)),
    unary main_v13 main_v14 (broadcastInDim S1x16x4096x4096 ![0, 1, 2, 3] bcast_S1x1x4096x4096_S1x16x4096x4096_0_1_2_3 : (⟨S1x1x4096x4096, .f32⟩ : BufTy).Contents (Elt F) → (⟨S1x16x4096x4096, .f32⟩ : BufTy).Contents (Elt F)),
    binary main_v4 main_v14 main_v15 (mulf : (⟨S1x16x4096x4096, .f32⟩ : BufTy).Contents (Elt F) → (⟨S1x16x4096x4096, .f32⟩ : BufTy).Contents (Elt F) → (⟨S1x16x4096x4096, .f32⟩ : BufTy).Contents (Elt F)),
    nullary main_cst_1 (constant S_ .f32 0xFF800000#32),
    binary main_v15 main_cst_1 main_v16 ((fun x v => Host.reduce FloatOps.maximumf x v reducesTo_S1x16x4096x4096_S1x16x4096_d3 h_S_) : (⟨S1x16x4096x4096, .f32⟩ : BufTy).Contents (Elt F) → (⟨S_, .f32⟩ : BufTy).Contents (Elt F) → (⟨S1x16x4096, .f32⟩ : BufTy).Contents (Elt F)),
    nullary main_cst_2 (constant S_ .f32 0xFF800000#32),
    unary main_cst_2 main_v17 (broadcastInDim S1x16x4096 ![] bcast_S_S1x16x4096 : (⟨S_, .f32⟩ : BufTy).Contents (Elt F) → (⟨S1x16x4096, .f32⟩ : BufTy).Contents (Elt F)),
    binary main_v17 main_v16 main_v18 (maximumf : (⟨S1x16x4096, .f32⟩ : BufTy).Contents (Elt F) → (⟨S1x16x4096, .f32⟩ : BufTy).Contents (Elt F) → (⟨S1x16x4096, .f32⟩ : BufTy).Contents (Elt F)),
    unary main_v18 main_v19 (broadcastInDim S1x16x4096x1 ![0, 1, 2] bcast_S1x16x4096_S1x16x4096x1_0_1_2 : (⟨S1x16x4096, .f32⟩ : BufTy).Contents (Elt F) → (⟨S1x16x4096x1, .f32⟩ : BufTy).Contents (Elt F)),
    unary main_v19 main_v20 (broadcastInDim S1x16x4096x4096 ![0, 1, 2, 3] bcast_S1x16x4096x1_S1x16x4096x4096_0_1_2_3 : (⟨S1x16x4096x1, .f32⟩ : BufTy).Contents (Elt F) → (⟨S1x16x4096x4096, .f32⟩ : BufTy).Contents (Elt F)),
    binary main_v15 main_v20 main_v21 (subf : (⟨S1x16x4096x4096, .f32⟩ : BufTy).Contents (Elt F) → (⟨S1x16x4096x4096, .f32⟩ : BufTy).Contents (Elt F) → (⟨S1x16x4096x4096, .f32⟩ : BufTy).Contents (Elt F)),
    unary main_v21 main_v22 (Host.exp : (⟨S1x16x4096x4096, .f32⟩ : BufTy).Contents (Elt F) → (⟨S1x16x4096x4096, .f32⟩ : BufTy).Contents (Elt F)),
    nullary main_cst_3 (constant S_ .f32 0x00000000#32),
    binary main_v22 main_cst_3 main_v23 ((fun x v => Host.reduceAdd x v reducesTo_S1x16x4096x4096_S1x16x4096_d3 h_S_) : (⟨S1x16x4096x4096, .f32⟩ : BufTy).Contents (Elt F) → (⟨S_, .f32⟩ : BufTy).Contents (Elt F) → (⟨S1x16x4096, .f32⟩ : BufTy).Contents (Elt F)),
    unary main_v23 main_v24 (broadcastInDim S1x16x4096x1 ![0, 1, 2] bcast_S1x16x4096_S1x16x4096x1_0_1_2 : (⟨S1x16x4096, .f32⟩ : BufTy).Contents (Elt F) → (⟨S1x16x4096x1, .f32⟩ : BufTy).Contents (Elt F)),
    unary main_v24 main_v25 (broadcastInDim S1x16x4096x4096 ![0, 1, 2, 3] bcast_S1x16x4096x1_S1x16x4096x4096_0_1_2_3 : (⟨S1x16x4096x1, .f32⟩ : BufTy).Contents (Elt F) → (⟨S1x16x4096x4096, .f32⟩ : BufTy).Contents (Elt F)),
    binary main_v22 main_v25 main_v26 (Host.divf : (⟨S1x16x4096x4096, .f32⟩ : BufTy).Contents (Elt F) → (⟨S1x16x4096x4096, .f32⟩ : BufTy).Contents (Elt F) → (⟨S1x16x4096x4096, .f32⟩ : BufTy).Contents (Elt F)),
    binary main_v26 main_arg2 main_v27 ((fun l r => Host.dotGeneral dot_S1x16x4096x4096_S1x16x4096x64_S1x16x4096x64_3_2_2_3_01_01 none l r) : (⟨S1x16x4096x4096, .f32⟩ : BufTy).Contents (Elt F) → (⟨S1x16x4096x64, .f32⟩ : BufTy).Contents (Elt F) → (⟨S1x16x4096x64, .f32⟩ : BufTy).Contents (Elt F)) ]

set_option maxRecDepth 1024 in
/-- @main is that straight line: the two functions unfolded at their calls, sequencing reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., binary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-- The fold of the operations at the result buffer is the composed term of the argument buffers' contents. -/
theorem out_eq (V : Valuation τ sig (Elt F)) :
    after ops V (main_v27 : DevRef τ sig)
      = refTerm (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution
    of @main terminates with the result buffer at the composed term of the arguments' launch contents and
    the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v27)
        = refTerm (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v27).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Attn

end
-- ==== Proof.RefMask.lean ====
/-
  The floor division of a position by 64 on 32-bit words, and the block mask it gives.

  For a position 0 ≤ k < 4096 the word of k is not negative and the divisor 64 is positive, so the
  quotient rounded toward zero is the word of k / 64 and the remainder the word of k % 64. The floor
  division subtracts one from the quotient exactly where the dividend's sign differs from the divisor's
  and the remainder is not zero: the divisor's sign word is 1; the dividend's is 1 for k > 0, and at
  k = 0 the remainder is 0; so the quotient is never corrected. Two positions then compare equal block
  numbers exactly when their quotients by 64 agree as natural numbers, and the comparison bit read as an
  unsigned integer is the real number 1 or 0.
-/
import Idealize.ShloMosaic.PureOps

namespace Cert.ReferenceIdeal.Attn

open Idealize.ShloMosaic

/-- The sign word of a 32-bit word: 0, minus one or one. -/
def signWord (x : BitVec 32) : BitVec 32 := if x = 0 then 0 else if x.msb then -1 else 1

theorem toNat_ofNat_pos (k : ℕ) (hk : k < 4096) : (BitVec.ofNat 32 k).toNat = k := by
  rw [BitVec.toNat_ofNat]; omega

theorem msb_ofNat_pos (k : ℕ) (hk : k < 4096) : (BitVec.ofNat 32 k).msb = false := by
  rw [BitVec.msb_eq_false_iff_two_mul_lt, toNat_ofNat_pos k hk]; omega

/-- The divisor is neither zero nor minus one: the signed division is at no corner. -/
theorem not_corner (x : BitVec 32) : ¬ IntOp.SDivCorner x 64#32 := by
  unfold IntOp.SDivCorner
  rintro (h | ⟨_, h⟩) <;> exact absurd h (by decide)

/-- The quotient of a position's word by 64, rounded toward zero, is the word of the natural quotient. -/
theorem divsi_pos (k : ℕ) (hk : k < 4096) :
    IntOp.divsi .host (BitVec.ofNat 32 k) 64#32 = BitVec.ofNat 32 (k / 64) := by
  unfold IntOp.divsi
  rw [if_neg (not_corner _)]
  apply BitVec.eq_of_toNat_eq
  rw [BitVec.sdiv_eq, msb_ofNat_pos k hk]
  have h64 : (64#32 : BitVec 32).msb = false := by decide
  rw [h64]
  simp only [BitVec.udiv_eq, BitVec.toNat_udiv, toNat_ofNat_pos k hk]
  rw [toNat_ofNat_pos (k / 64) (by omega)]
  have h64n : (64#32 : BitVec 32).toNat = 64 := by decide
  rw [h64n]

/-- The remainder of a position's word by 64 is the word of the natural remainder. -/
theorem remsi_pos (k : ℕ) (hk : k < 4096) :
    IntOp.remsi .host (BitVec.ofNat 32 k) 64#32 = BitVec.ofNat 32 (k % 64) := by
  unfold IntOp.remsi
  rw [if_neg (not_corner _)]
  apply BitVec.eq_of_toNat_eq
  rw [BitVec.srem_eq, msb_ofNat_pos k hk]
  have h64 : (64#32 : BitVec 32).msb = false := by decide
  rw [h64]
  simp only [BitVec.umod_eq, BitVec.toNat_umod, toNat_ofNat_pos k hk]
  rw [toNat_ofNat_pos (k % 64) (by omega)]
  have h64n : (64#32 : BitVec 32).toNat = 64 := by decide
  rw [h64n]

/-- The sign word of a position's word: 0 at position 0, otherwise 1. -/
theorem signWord_pos (k : ℕ) (hk : k < 4096) :
    signWord (BitVec.ofNat 32 k) = if k = 0 then 0#32 else 1#32 := by
  unfold signWord
  rw [msb_ofNat_pos k hk]
  by_cases h0 : k = 0
  · subst h0; rfl
  · have hne : BitVec.ofNat 32 k ≠ 0 := by
      intro h; have := congrArg BitVec.toNat h
      rw [toNat_ofNat_pos k hk] at this; exact h0 (by simpa using this)
    rw [if_neg hne, if_neg h0]; rfl

/-- The floor division's chain at a position: the select of the corrected and the plain quotient is the word
    of the natural quotient, since the correction's condition never holds. -/
theorem floorDiv_pos (k : ℕ) (hk : k < 4096) :
    Scalar.select
        (IntOp.andi (IntOp.cmpi .ne (signWord (BitVec.ofNat 32 k)) (signWord 64#32))
          (IntOp.cmpi .ne (IntOp.remsi .host (BitVec.ofNat 32 k) 64#32) 0#32))
        (IntOp.subi (IntOp.divsi .host (BitVec.ofNat 32 k) 64#32) 1#32)
        (IntOp.divsi .host (BitVec.ofNat 32 k) 64#32)
      = BitVec.ofNat 32 (k / 64) := by
  have hc : IntOp.andi (IntOp.cmpi .ne (signWord (BitVec.ofNat 32 k)) (signWord 64#32))
      (IntOp.cmpi .ne (IntOp.remsi .host (BitVec.ofNat 32 k) 64#32) 0#32) = 0#1 := by
    rw [signWord_pos k hk, remsi_pos k hk]
    have h64 : signWord 64#32 = 1#32 := by decide
    rw [h64]
    by_cases h0 : k = 0
    · subst h0; decide
    · rw [if_neg h0]
      unfold IntOp.andi IntOp.cmpi
      have : ((1#32 : BitVec 32) != 1#32) = false := by decide
      simp only [this]
      rw [BitVec.ofBool_false]
      exact BitVec.zero_and
  rw [hc, divsi_pos k hk]
  exact if_neg (by decide)

/-- Two positions' block numbers compare equal as words exactly when the natural quotients agree. -/
theorem ofNat_div_eq_iff (s k : ℕ) (hs : s < 4096) (hk : k < 4096) :
    BitVec.ofNat 32 (s / 64) = BitVec.ofNat 32 (k / 64) ↔ s / 64 = k / 64 := by
  constructor
  · intro h
    have := congrArg BitVec.toNat h
    rwa [toNat_ofNat_pos _ (by omega), toNat_ofNat_pos _ (by omega)] at this
  · intro h; rw [h]

/-- The comparison bit of two positions' block numbers, read as an unsigned integer. -/
theorem cmpi_eq_toNat (s k : ℕ) (hs : s < 4096) (hk : k < 4096) :
    (IntOp.cmpi .eq (BitVec.ofNat 32 (s / 64)) (BitVec.ofNat 32 (k / 64))).toNat
      = if s / 64 = k / 64 then 1 else 0 := by
  unfold IntOp.cmpi
  by_cases h : s / 64 = k / 64
  · rw [if_pos h, h]; simp
  · rw [if_neg h]
    have hne : BitVec.ofNat 32 (s / 64) ≠ BitVec.ofNat 32 (k / 64) := fun e => h ((ofNat_div_eq_iff s k hs hk).mp e)
    simp [hne]

end Cert.ReferenceIdeal.Attn
-- ==== Proof.RefDots.lean ====
/-
  The two contractions of the reference read at an index.

  The scores contract the feature axis of the first two arguments: at result index (b, h, s, k) and feature
  e the operands are read at (b, h, s, e) and (b, h, k, e). The result contracts the key-position axis of the
  weights with the third argument: at result index (b, h, s, d) and key position k the operands are read at
  (b, h, s, k) and (b, h, k, d). Each contraction's index set is one axis, re-indexed by its coordinate.
-/
import proofs.«118906_j13932873908639_2_alg».proof.Proof.Gen.ReferenceIdeal
import Idealize.ShloMosaic.Lib.ValueIdx
import Idealize.ShloMosaic.PureOps.Ideal.Laws

noncomputable section

namespace Cert.ReferenceIdeal.Attn

open Cert.ReferenceIdeal Idealize.ShloMosaic Idealize.ShloMosaic.ValueIdx

/-- The dimension numbers of the scores' contraction. -/
abbrev dimsQK : DotDims S1x16x4096x64 S1x16x4096x64 S1x16x4096x4096 := dot_S1x16x4096x64_S1x16x4096x64_S1x16x4096x4096_3_3_2_2_01_01
/-- The dimension numbers of the result's contraction. -/
abbrev dimsWV : DotDims S1x16x4096x4096 S1x16x4096x64 S1x16x4096x64 := dot_S1x16x4096x4096_S1x16x4096x64_S1x16x4096x64_3_2_2_3_01_01

/-- The scores' contraction index is a feature. -/
def contrQK : dimsQK.contr.Idx ≃ Fin 64 := contrEquiv1 dimsQK 64 rfl rfl
/-- The result's contraction index is a key position. -/
def contrWV : dimsWV.contr.Idx ≃ Fin 4096 := contrEquiv1 dimsWV 4096 rfl rfl

theorem lhsQK (b : Fin 1) (h : Fin 16) (s k : Fin 4096) (e : Fin 64) :
    dimsQK.lhsIdx (ix4 b h s k) (contrQK.symm e) = ix4 b h s e := by
  funext a
  match a with
  | ⟨0, _⟩ => exact Fin.ext (by simp [DotDims.lhsIdx, dot_S1x16x4096x64_S1x16x4096x64_S1x16x4096x4096_3_3_2_2_01_01] <;> rfl)
  | ⟨1, _⟩ => exact Fin.ext (by simp [DotDims.lhsIdx, dot_S1x16x4096x64_S1x16x4096x64_S1x16x4096x4096_3_3_2_2_01_01] <;> rfl)
  | ⟨2, _⟩ => exact Fin.ext (by simp [DotDims.lhsIdx, dot_S1x16x4096x64_S1x16x4096x64_S1x16x4096x4096_3_3_2_2_01_01] <;> rfl)
  | ⟨3, _⟩ => exact Fin.ext ((dimsQK.lhsIdx_val_of_single (cl := 3) rfl _ _).trans (contrEquiv1_symm_val dimsQK 64 rfl rfl e))

theorem rhsQK (b : Fin 1) (h : Fin 16) (s k : Fin 4096) (e : Fin 64) :
    dimsQK.rhsIdx (ix4 b h s k) (contrQK.symm e) = ix4 b h k e := by
  funext a
  match a with
  | ⟨0, _⟩ => exact Fin.ext (by simp [DotDims.rhsIdx, dot_S1x16x4096x64_S1x16x4096x64_S1x16x4096x4096_3_3_2_2_01_01] <;> rfl)
  | ⟨1, _⟩ => exact Fin.ext (by simp [DotDims.rhsIdx, dot_S1x16x4096x64_S1x16x4096x64_S1x16x4096x4096_3_3_2_2_01_01] <;> rfl)
  | ⟨2, _⟩ => exact Fin.ext (by simp [DotDims.rhsIdx, dot_S1x16x4096x64_S1x16x4096x64_S1x16x4096x4096_3_3_2_2_01_01] <;> rfl)
  | ⟨3, _⟩ => exact Fin.ext ((dimsQK.rhsIdx_val_of_single (cr := 3) rfl _ _).trans (contrEquiv1_symm_val dimsQK 64 rfl rfl e))

theorem lhsWV (b : Fin 1) (h : Fin 16) (s : Fin 4096) (d : Fin 64) (k : Fin 4096) :
    dimsWV.lhsIdx (ix4 b h s d) (contrWV.symm k) = ix4 b h s k := by
  funext a
  match a with
  | ⟨0, _⟩ => exact Fin.ext (by simp [DotDims.lhsIdx, dot_S1x16x4096x4096_S1x16x4096x64_S1x16x4096x64_3_2_2_3_01_01] <;> rfl)
  | ⟨1, _⟩ => exact Fin.ext (by simp [DotDims.lhsIdx, dot_S1x16x4096x4096_S1x16x4096x64_S1x16x4096x64_3_2_2_3_01_01] <;> rfl)
  | ⟨2, _⟩ => exact Fin.ext (by simp [DotDims.lhsIdx, dot_S1x16x4096x4096_S1x16x4096x64_S1x16x4096x64_3_2_2_3_01_01] <;> rfl)
  | ⟨3, _⟩ => exact Fin.ext ((dimsWV.lhsIdx_val_of_single (cl := 3) rfl _ _).trans (contrEquiv1_symm_val dimsWV 4096 rfl rfl k))

theorem rhsWV (b : Fin 1) (h : Fin 16) (s : Fin 4096) (d : Fin 64) (k : Fin 4096) :
    dimsWV.rhsIdx (ix4 b h s d) (contrWV.symm k) = ix4 b h k d := by
  funext a
  match a with
  | ⟨0, _⟩ => exact Fin.ext (by simp [DotDims.rhsIdx, dot_S1x16x4096x4096_S1x16x4096x64_S1x16x4096x64_3_2_2_3_01_01] <;> rfl)
  | ⟨1, _⟩ => exact Fin.ext (by simp [DotDims.rhsIdx, dot_S1x16x4096x4096_S1x16x4096x64_S1x16x4096x64_3_2_2_3_01_01] <;> rfl)
  | ⟨2, _⟩ => exact Fin.ext ((dimsWV.rhsIdx_val_of_single (cr := 2) rfl _ _).trans (contrEquiv1_symm_val dimsWV 4096 rfl rfl k))
  | ⟨3, _⟩ => exact Fin.ext (by simp [DotDims.rhsIdx, dot_S1x16x4096x4096_S1x16x4096x64_S1x16x4096x64_3_2_2_3_01_01] <;> rfl)

/-- The scores' contraction at an index: the sum over the features. -/
theorem scoresDot_apply (a0 a1 : FVec Ideal S1x16x4096x64 .f32) (b : Fin 1) (h : Fin 16) (s k : Fin 4096) :
    Host.dotGeneral (F := Ideal) dimsQK none a0 a1 (ix4 b h s k) = ∑ e : Fin 64, a0 (ix4 b h s e) * a1 (ix4 b h k e) := by
  simp only [Host.dotGeneral]
  rw [Ideal.dotGeneral_apply, ← Equiv.sum_comp contrQK.symm]
  exact Finset.sum_congr rfl fun e _ => by rw [lhsQK, rhsQK]

/-- The result's contraction at an index: the sum over the key positions. -/
theorem resultDot_apply (w : FVec Ideal S1x16x4096x4096 .f32) (a2 : FVec Ideal S1x16x4096x64 .f32) (b : Fin 1) (h : Fin 16)
    (s : Fin 4096) (d : Fin 64) :
    Host.dotGeneral (F := Ideal) dimsWV none w a2 (ix4 b h s d) = ∑ k : Fin 4096, w (ix4 b h s k) * a2 (ix4 b h k d) := by
  simp only [Host.dotGeneral]
  rw [Ideal.dotGeneral_apply, ← Equiv.sum_comp contrWV.symm]
  exact Finset.sum_congr rfl fun k _ => by rw [lhsWV, rhsWV]

end Cert.ReferenceIdeal.Attn

end
-- ==== Proof.RefRead.lean ====
/-
  The reference's composed term read at an index: stage by stage it is the softmax over all key positions of
  the masked scaled scores, contracted with the third argument — the specification's `fullOut`.
-/
import proofs.«118906_j13932873908639_2_alg».proof.Proof.RefRun
import proofs.«118906_j13932873908639_2_alg».proof.Proof.RefMask
import proofs.«118906_j13932873908639_2_alg».proof.Proof.RefDots
import proofs.«118906_j13932873908639_2_alg».proof.Proof.Spec
import proofs.«118906_j13932873908639_2_alg».proof.Proof.Consts
import Idealize.ShloMosaic.Lib.IdealHost
import Idealize.ShloMosaic.Lib.Pipeline.Value

noncomputable section

namespace Cert.ReferenceIdeal.Attn

open Cert.ReferenceIdeal Cert.ReferenceIdeal.Facts₀ Idealize.ShloMosaic Idealize.ShloMosaic.ValueIdx Cert.BlockAttn
open Cert.BlockAttn.Consts

/-- The square root of 64 is 8. -/
theorem sqrt_64 : Real.sqrt 64 = 8 := by
  rw [show (64 : ℝ) = 8 ^ 2 by norm_num]; exact Real.sqrt_sq (by norm_num)

/-- The scale is one eighth. -/
theorem scale_apply : scale (F := Ideal) ix0 = ((1 / 8 : ℝ) : EReal) := by
  show Ideal.div (Ideal.ofBits .f32 0x3F800000#32) (Ideal.sqrt (Ideal.ofBits .f32 0x42800000#32)) = _
  rw [ofBits_one, ofBits_64, Ideal.sqrt_coe, if_neg (by norm_num), sqrt_64]
  unfold Ideal.div
  rw [if_neg (by exact_mod_cast (by norm_num : (8 : ℝ) ≠ 0)), ← EReal.coe_inv, ← EReal.coe_mul]
  norm_num

/-- The scaled score of a query position against a key position. -/
theorem scores_apply (a0 a1 : Arr) (h : Fin 16) (s k : Fin 4096) :
    scores (F := Ideal) a0 a1 (ix4 (0 : Fin 1) h s k) = dotQK a0 a1 h s k * ((1 / 8 : ℝ) : EReal) := by
  unfold scores
  rw [mulf_apply, scoresDot_apply, broadcastInDim_scalar_apply, scale_apply]
  rfl

/-- The block number of a position is its quotient by 64. -/
theorem blockIdx_apply (k : Fin 4096) : blockIdx (ix1 k) = BitVec.ofNat 32 (k.val / 64) :=
  floorDiv_pos k.val k.isLt

/-- The comparison of two positions' block numbers. -/
theorem sameBlock_apply (s k : Fin 4096) :
    sameBlock (ix2 s k) = IntOp.cmpi .eq (BitVec.ofNat 32 (s.val / 64)) (BitVec.ofNat 32 (k.val / 64)) := by
  unfold sameBlock
  show IntOp.cmpi .eq _ _ = _
  rw [broadcastInDim_apply _ _ _ (ix2 s k) (ix2 s (0 : Fin 1)) (fun a => match a with | ⟨0, _⟩ => rfl | ⟨1, _⟩ => rfl),
    broadcastInDim_apply _ _ _ (ix2 s (0 : Fin 1)) (ix1 s) (fun a => match a with | ⟨0, _⟩ => rfl),
    broadcastInDim_apply _ _ _ (ix2 s k) (ix2 (0 : Fin 1) k) (fun a => match a with | ⟨0, _⟩ => rfl | ⟨1, _⟩ => rfl),
    broadcastInDim_apply _ _ _ (ix2 (0 : Fin 1) k) (ix1 k) (fun a => match a with | ⟨0, _⟩ => rfl),
    blockIdx_apply, blockIdx_apply]

/-- The mask array at a query and a key position is the specification's mask. -/
theorem maskArr_apply (h : Fin 16) (s k : Fin 4096) :
    maskArr (F := Ideal) (ix4 (0 : Fin 1) h s k) = mask s k := by
  unfold maskArr
  rw [broadcastInDim_apply _ _ _ (ix4 (0 : Fin 1) h s k) (ix4 (0 : Fin 1) (0 : Fin 1) s k)
      (fun a => match a with | ⟨0, _⟩ => rfl | ⟨1, _⟩ => rfl | ⟨2, _⟩ => rfl | ⟨3, _⟩ => rfl),
    broadcastInDim_apply _ _ _ (ix4 (0 : Fin 1) (0 : Fin 1) s k) (ix2 s k)
      (fun a => match a with | ⟨0, _⟩ => rfl | ⟨1, _⟩ => rfl)]
  show (((sameBlock (ix2 s k)).toNat : ℝ) : EReal) = _
  rw [sameBlock_apply, cmpi_eq_toNat s.val k.val s.isLt k.isLt]
  unfold mask
  split <;> simp

/-- The masked score is the specification's score. -/
theorem masked_apply (a0 a1 : Arr) (h : Fin 16) (s k : Fin 4096) :
    masked (F := Ideal) a0 a1 (ix4 (0 : Fin 1) h s k) = fullScore a0 a1 h s k := by
  unfold masked
  rw [mulf_apply, scores_apply, maskArr_apply]
  rfl

/-- The reduced axis's witness at the literal shapes. -/
theorem reduces_d3 : S1x16x4096x4096.Reduces [3] S1x16x4096 := by decide

/-- The source index over a result index of the row reductions, with a key position inserted. -/
theorem lift_d3 (h : Fin 16) (s k : Fin 4096) :
    reduces_d3.lift (ix3 (0 : Fin 1) h s) k = ix4 (0 : Fin 1) h s k := by
  funext c
  match c with
  | ⟨0, _⟩ => exact Fin.ext rfl
  | ⟨1, _⟩ => exact Fin.ext rfl
  | ⟨2, _⟩ => exact Fin.ext rfl
  | ⟨3, _⟩ => exact Fin.ext rfl

/-- The row maximum is the specification's: the fold of max from minus infinity over the key positions. -/
theorem rowMax_apply (a0 a1 : Arr) (h : Fin 16) (s : Fin 4096) :
    rowMax (F := Ideal) a0 a1 (ix3 (0 : Fin 1) h s) = fullMax a0 a1 h s := by
  unfold rowMax
  rw [maximumf_apply, broadcastInDim_scalar_apply, constant_apply, ofBits_neg_inf, bot_sup_eq,
    Host.reduce_eq_fold_single FloatOps.maximumf (masked (F := Ideal) a0 a1) _ _ reduces_d3 _ (ix3 (0 : Fin 1) h s),
    constant_apply, ofBits_neg_inf]
  unfold fullMax
  refine Finset.fold_congr fun (k : Fin 4096) _ => ?_
  show masked (F := Ideal) a0 a1 (reduces_d3.lift (ix3 (0 : Fin 1) h s) k) = _
  rw [lift_d3, masked_apply]

/-- The exponential of a masked score less its row maximum. -/
theorem expArr_apply (a0 a1 : Arr) (h : Fin 16) (s k : Fin 4096) :
    expArr (F := Ideal) a0 a1 (ix4 (0 : Fin 1) h s k) = fullExp a0 a1 h s k := by
  unfold expArr
  show Ideal.exp _ = _
  rw [subf_apply, masked_apply,
    broadcastInDim_apply _ _ _ (ix4 (0 : Fin 1) h s k) (ix4 (0 : Fin 1) h s (0 : Fin 1))
      (fun a => match a with | ⟨0, _⟩ => rfl | ⟨1, _⟩ => rfl | ⟨2, _⟩ => rfl | ⟨3, _⟩ => rfl),
    broadcastInDim_apply _ _ _ (ix4 (0 : Fin 1) h s (0 : Fin 1)) (ix3 (0 : Fin 1) h s)
      (fun a => match a with | ⟨0, _⟩ => rfl | ⟨1, _⟩ => rfl | ⟨2, _⟩ => rfl),
    rowMax_apply]
  rfl

/-- The row sum of the exponentials. -/
theorem rowSum_apply (a0 a1 : Arr) (h : Fin 16) (s : Fin 4096) :
    rowSum (F := Ideal) a0 a1 (ix3 (0 : Fin 1) h s) = ∑ k : Fin 4096, fullExp a0 a1 h s k := by
  unfold rowSum
  rw [hostReduceAdd_apply, Ideal.hostReduceAdd_single _ reduces_d3, constant_apply, ofBits_zero, zero_add]
  refine Finset.sum_congr rfl fun (k : Fin 4096) _ => ?_
  rw [lift_d3, expArr_apply]

/-- The softmax weight of a key position. -/
theorem weights_apply (a0 a1 : Arr) (h : Fin 16) (s k : Fin 4096) :
    weights (F := Ideal) a0 a1 (ix4 (0 : Fin 1) h s k)
      = Ideal.div (fullExp a0 a1 h s k) (∑ k' : Fin 4096, fullExp a0 a1 h s k') := by
  unfold weights
  rw [hostDivf_apply, expArr_apply,
    broadcastInDim_apply _ _ _ (ix4 (0 : Fin 1) h s k) (ix4 (0 : Fin 1) h s (0 : Fin 1))
      (fun a => match a with | ⟨0, _⟩ => rfl | ⟨1, _⟩ => rfl | ⟨2, _⟩ => rfl | ⟨3, _⟩ => rfl),
    broadcastInDim_apply _ _ _ (ix4 (0 : Fin 1) h s (0 : Fin 1)) (ix3 (0 : Fin 1) h s)
      (fun a => match a with | ⟨0, _⟩ => rfl | ⟨1, _⟩ => rfl | ⟨2, _⟩ => rfl),
    rowSum_apply]

/-- The composed term at an index is the specification's softmax over all key positions. -/
theorem refTerm_apply (a0 a1 a2 : Arr) (h : Fin 16) (s : Fin 4096) (d : Fin 64) :
    refTerm (F := Ideal) a0 a1 a2 (ix4 (0 : Fin 1) h s d) = fullOut a0 a1 a2 h s d := by
  unfold refTerm
  rw [resultDot_apply]
  unfold fullOut
  refine Finset.sum_congr rfl fun k _ => ?_
  rw [weights_apply]
  rfl

/-- The composed term is the specification's array. -/
theorem refTerm_eq (a0 a1 a2 : Arr) : refTerm (F := Ideal) a0 a1 a2 = fullArr a0 a1 a2 := by
  funext i
  obtain ⟨b, h, s, d, rfl⟩ : ∃ (b : Fin 1) (h : Fin 16) (s : Fin 4096) (d : Fin 64), i = ix4 b h s d :=
    ⟨i 0, i 1, i 2, i 3, eq_ix4 i⟩
  obtain rfl : b = 0 := Subsingleton.elim _ _
  exact refTerm_apply a0 a1 a2 h s d

/-! ## The run, with the result read -/

open Idealize.ShloMosaic.TcCoe Idealize.SL.Sem in
/-- On every device, from any memory with zero counters: every weakly fair execution of the reference's @main
    terminates with the result buffer holding the specification's softmax over all key positions of the three
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
        = Cert.BlockAttn.fullArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refTerm_eq _ _ _), (h c).2⟩) (run_term m ρ)

end Cert.ReferenceIdeal.Attn

end
-- ==== Proof.SoftmaxCollapse.lean ====
/-
  The softmax over all 4096 key positions of block-masked scores collapses to the 64 positions of the
  query's own block: the 4032 positions outside the block all carry the masked score 0, hence one common
  weight, and both the normaliser and the weighted sum split into the block's part plus that weight times
  a count (respectively times the sum of the values outside the block).
-/
import proofs.«118906_j13932873908639_2_alg».proof.Proof.Spec

noncomputable section

namespace Cert.BlockAttn

open Idealize.ShloMosaic Idealize.ShloMosaic.ValueIdx

/-! ## The block of a position -/

/-- The place of a position inside its block of 64. -/
def blockIdx (k : Fin 4096) : Fin 64 := ⟨k.val % 64, Nat.mod_lt _ (by norm_num)⟩

theorem inBlock_div (s : Fin 4096) (j : Fin 64) : (inBlock s j).val / 64 = s.val / 64 := by
  simp only [inBlock]; omega

theorem inBlock_blockIdx (s k : Fin 4096) (hk : s.val / 64 = k.val / 64) : inBlock s (blockIdx k) = k := by
  apply Fin.ext; simp only [inBlock, blockIdx]; omega

theorem blockIdx_inBlock (s : Fin 4096) (j : Fin 64) : blockIdx (inBlock s j) = j := by
  apply Fin.ext; simp only [inBlock, blockIdx]; omega

/-- Every block leaves some position outside (there are 64 blocks). -/
theorem exists_outside (s : Fin 4096) : ∃ k : Fin 4096, ¬ s.val / 64 = k.val / 64 := by
  by_cases h : s.val < 64
  · exact ⟨⟨64, by norm_num⟩, by simp only; omega⟩
  · exact ⟨⟨0, by norm_num⟩, by simp only; omega⟩

theorem mask_inBlock (s : Fin 4096) (j : Fin 64) : mask s (inBlock s j) = 1 := by
  rw [mask, if_pos (inBlock_div s j).symm]

theorem mask_outside (s k : Fin 4096) (h : ¬ s.val / 64 = k.val / 64) : mask s k = 0 := if_neg h

/-! ## Sums over all positions split into the block and the rest -/

/-- The positions outside the block of `s`. -/
def outside (s : Fin 4096) : Finset (Fin 4096) := Finset.univ.filter (fun k : Fin 4096 => ¬ s.val / 64 = k.val / 64)

theorem not_block_of_mem_outside {s k : Fin 4096} (hk : k ∈ outside s) : ¬ s.val / 64 = k.val / 64 :=
  (Finset.mem_filter.mp hk).2

/-- A sum over all 4096 positions is the sum over the block, indexed by the place in the block, plus the
    sum over the positions outside it. -/
theorem sum_split (s : Fin 4096) (g : Fin 4096 → ℝ) :
    ∑ k, g k = ∑ j : Fin 64, g (inBlock s j) + ∑ k ∈ outside s, g k := by
  rw [outside, ← Finset.sum_filter_add_sum_filter_not Finset.univ (fun k : Fin 4096 => s.val / 64 = k.val / 64) g]
  congr 1
  symm
  refine Finset.sum_nbij' (fun j => inBlock s j) blockIdx ?_ ?_ ?_ ?_ ?_
  · intro j _
    exact Finset.mem_filter.mpr ⟨Finset.mem_univ _, (inBlock_div s j).symm⟩
  · intro k _
    exact Finset.mem_univ _
  · intro j _
    exact blockIdx_inBlock s j
  · intro k hk
    exact inBlock_blockIdx s k (Finset.mem_filter.mp hk).2
  · intro j _
    rfl

/-- There are 4096 - 64 = 4032 positions outside a block. -/
theorem card_outside (s : Fin 4096) : ((outside s).card : ℝ) = 4032 := by
  have h := sum_split s (fun _ => (1 : ℝ))
  simp only [Finset.sum_const, Finset.card_univ, Fintype.card_fin, nsmul_eq_mul, mul_one] at h
  push_cast at h
  linarith

/-- The normaliser: weights constant outside the block. -/
theorem sum_eq_block_add_const (s : Fin 4096) (f : Fin 4096 → ℝ) (c : ℝ)
    (hout : ∀ k : Fin 4096, ¬ s.val / 64 = k.val / 64 → f k = c) :
    ∑ k, f k = ∑ j : Fin 64, f (inBlock s j) + 4032 * c := by
  rw [sum_split s f, Finset.sum_congr rfl (fun k hk => hout k (not_block_of_mem_outside hk)),
    Finset.sum_const, nsmul_eq_mul, card_outside]

/-- The weighted sum: weights constant outside the block. -/
theorem weighted_sum_eq (s : Fin 4096) (f v : Fin 4096 → ℝ) (c : ℝ)
    (hout : ∀ k : Fin 4096, ¬ s.val / 64 = k.val / 64 → f k = c) :
    ∑ k, f k * v k
      = ∑ j : Fin 64, f (inBlock s j) * v (inBlock s j) + c * (∑ k, v k - ∑ j : Fin 64, v (inBlock s j)) := by
  have h : ∑ k ∈ outside s, f k * v k = c * ∑ k ∈ outside s, v k := by
    rw [Finset.mul_sum]
    exact Finset.sum_congr rfl (fun k hk => by rw [hout k (not_block_of_mem_outside hk)])
  rw [sum_split s (fun k => f k * v k), sum_split s v, h]
  ring

/-! ## The row maximum -/

/-- The largest masked score over all positions is the larger of the block's largest score and 0: inside the
    block the mask is 1, outside it the masked score is 0, and some position lies outside. -/
theorem fold_max_masked (s : Fin 4096) (x : Fin 4096 → EReal) :
    (Finset.univ : Finset (Fin 4096)).fold max ⊥ (fun k => x k * mask s k)
      = max ((Finset.univ : Finset (Fin 64)).fold max ⊥ (fun j => x (inBlock s j))) 0 := by
  apply le_antisymm
  · rw [Finset.fold_max_le]
    refine ⟨bot_le, fun k _ => ?_⟩
    by_cases hk : s.val / 64 = k.val / 64
    · rw [mask, if_pos hk, mul_one]
      refine le_max_of_le_left ?_
      rw [Finset.le_fold_max]
      exact Or.inr ⟨blockIdx k, Finset.mem_univ _, by rw [inBlock_blockIdx s k hk]⟩
    · rw [mask_outside s k hk, mul_zero]
      exact le_max_right _ _
  · refine max_le ?_ ?_
    · rw [Finset.fold_max_le]
      refine ⟨bot_le, fun j _ => ?_⟩
      rw [Finset.le_fold_max]
      exact Or.inr ⟨inBlock s j, Finset.mem_univ _, by rw [mask_inBlock, mul_one]⟩
    · obtain ⟨k, hk⟩ := exists_outside s
      rw [Finset.le_fold_max]
      exact Or.inr ⟨k, Finset.mem_univ _, by rw [mask_outside s k hk, mul_zero]⟩

/-- The larger of 0 and the largest of finitely many reals is a real. -/
theorem exists_real_max (x : Fin 64 → ℝ) :
    ∃ m : ℝ, max ((Finset.univ : Finset (Fin 64)).fold max ⊥ (fun j => (x j : EReal))) 0 = (m : EReal) := by
  have h1 : max ((Finset.univ : Finset (Fin 64)).fold max ⊥ (fun j => (x j : EReal))) 0 ≠ ⊥ :=
    ne_of_gt (lt_of_lt_of_le (by rw [← EReal.coe_zero]; exact EReal.bot_lt_coe 0) (le_max_right _ _))
  have h2 : max ((Finset.univ : Finset (Fin 64)).fold max ⊥ (fun j => (x j : EReal))) 0 ≠ ⊤ := by
    apply ne_of_lt
    rw [max_lt_iff, Finset.fold_max_lt]
    exact ⟨⟨bot_lt_top, fun j _ => EReal.coe_lt_top _⟩, by rw [← EReal.coe_zero]; exact EReal.coe_lt_top 0⟩
  exact ⟨_, (EReal.coe_toReal h2 h1).symm⟩

/-- The coercion of the reals into the extended reals commutes with finite sums. -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## The collapse, for real scores and real values -/

/-- Softmax of the masked real scores `sc` over all positions, contracted with the real values `v`, from the
    block's positions alone. -/
theorem softmax_collapse (s : Fin 4096) (sc v : Fin 4096 → ℝ) :
    Ideal.div
      ((∑ j : Fin 64, Ideal.exp ((sc (inBlock s j) : EReal)
            - max ((Finset.univ : Finset (Fin 64)).fold max ⊥ (fun j => (sc (inBlock s j) : EReal))) 0)
          * (v (inBlock s j) : EReal))
        + Ideal.exp (0 - max ((Finset.univ : Finset (Fin 64)).fold max ⊥ (fun j => (sc (inBlock s j) : EReal))) 0)
          * ((∑ s' : Fin 4096, (v s' : EReal)) - ∑ j : Fin 64, (v (inBlock s j) : EReal)))
      ((∑ j : Fin 64, Ideal.exp ((sc (inBlock s j) : EReal)
            - max ((Finset.univ : Finset (Fin 64)).fold max ⊥ (fun j => (sc (inBlock s j) : EReal))) 0))
        + ((4032 : ℝ) : EReal)
          * Ideal.exp (0 - max ((Finset.univ : Finset (Fin 64)).fold max ⊥ (fun j => (sc (inBlock s j) : EReal))) 0))
    = ∑ k : Fin 4096,
        Ideal.div
          (Ideal.exp ((sc k : EReal) * mask s k
            - (Finset.univ : Finset (Fin 4096)).fold max ⊥ (fun k => (sc k : EReal) * mask s k)))
          (∑ k' : Fin 4096, Ideal.exp ((sc k' : EReal) * mask s k'
            - (Finset.univ : Finset (Fin 4096)).fold max ⊥ (fun k => (sc k : EReal) * mask s k)))
          * (v k : EReal) := by
  rw [fold_max_masked s (fun k => (sc k : EReal))]
  obtain ⟨m, hm⟩ := exists_real_max (fun j => sc (inBlock s j))
  rw [hm]
  -- every weight is the coercion of a real exponential
  let f : Fin 4096 → ℝ := fun k => Real.exp (sc k * (if s.val / 64 = k.val / 64 then 1 else 0) - m)
  have hf : ∀ k : Fin 4096, Ideal.exp ((sc k : EReal) * mask s k - (m : EReal)) = (f k : EReal) := by
    intro k
    by_cases hk : s.val / 64 = k.val / 64
    · rw [mask, if_pos hk, mul_one, ← EReal.coe_sub, Ideal.exp_coe]
      simp only [f, if_pos hk, mul_one]
    · rw [mask_outside s k hk, mul_zero, ← EReal.coe_zero, ← EReal.coe_sub, Ideal.exp_coe]
      simp only [f, if_neg hk, mul_zero]
  have hfin : ∀ j : Fin 64, Ideal.exp ((sc (inBlock s j) : EReal) - (m : EReal)) = (f (inBlock s j) : EReal) := by
    intro j
    rw [← EReal.coe_sub, Ideal.exp_coe]
    simp only [f, if_pos (inBlock_div s j).symm, mul_one]
  have hc : Ideal.exp (0 - (m : EReal)) = (Real.exp (0 - m) : EReal) := by
    rw [← EReal.coe_zero, ← EReal.coe_sub, Ideal.exp_coe]
  have hout : ∀ k : Fin 4096, ¬ s.val / 64 = k.val / 64 → f k = Real.exp (0 - m) := by
    intro k hk
    simp only [f, if_neg hk, mul_zero]
  simp only [hf, hfin, hc]
  -- the normaliser is a positive real
  have hZpos : 0 < ∑ k, f k :=
    Finset.sum_pos (fun k _ => Real.exp_pos _) ⟨s, Finset.mem_univ s⟩
  have hZne : (∑ k, f k) ≠ 0 := ne_of_gt hZpos
  have hden : (∑ j : Fin 64, (f (inBlock s j) : EReal)) + ((4032 : ℝ) : EReal) * (Real.exp (0 - m) : EReal)
      = ((∑ k, f k : ℝ) : EReal) := by
    rw [sum_eq_block_add_const s f _ hout, EReal.coe_add, EReal.coe_mul, coe_finset_sum]
  have hnum : (∑ j : Fin 64, (f (inBlock s j) : EReal) * (v (inBlock s j) : EReal))
        + (Real.exp (0 - m) : EReal) * ((∑ s' : Fin 4096, (v s' : EReal)) - ∑ j : Fin 64, (v (inBlock s j) : EReal))
      = ((∑ k, f k * v k : ℝ) : EReal) := by
    rw [weighted_sum_eq s f v _ hout, EReal.coe_add, EReal.coe_mul, EReal.coe_sub, coe_finset_sum, coe_finset_sum,
      coe_finset_sum]
    simp only [EReal.coe_mul]
  rw [hnum, hden, ← coe_finset_sum, Ideal.div_coe hZne]
  simp only [Ideal.div_coe hZne, ← EReal.coe_mul, ← coe_finset_sum]
  rw [EReal.coe_eq_coe_iff]
  rw [Finset.sum_mul]
  exact Finset.sum_congr rfl (fun k _ => by ring)

/-! ## The two attention functions agree on real arrays -/

theorem blockOut_eq_fullOut (Q K V : Arr)
    (hQ : ∀ i, ∃ r : ℝ, Q i = (r : EReal)) (hK : ∀ i, ∃ r : ℝ, K i = (r : EReal)) (hV : ∀ i, ∃ r : ℝ, V i = (r : EReal))
    (h : Fin 16) (s : Fin 4096) (d : Fin 64) :
    blockOut Q K V h s d = fullOut Q K V h s d := by
  choose q hq using hQ
  choose kk hk using hK
  choose v hv using hV
  -- every scaled dot product is a real
  have hsc : ∀ k : Fin 4096, dotQK Q K h s k * ((1 / 8 : ℝ) : EReal)
      = (((∑ e : Fin 64, q (ix4 (0 : Fin 1) h s e) * kk (ix4 (0 : Fin 1) h k e)) * (1 / 8) : ℝ) : EReal) := by
    intro k
    rw [EReal.coe_mul, coe_finset_sum]
    simp only [dotQK, entry, hq, hk, EReal.coe_mul]
  simp only [blockOut, blockExp, blockMax, blockScore, outsideExp, fullOut, fullExp, fullMax, fullScore, hsc, entry, hv]
  exact softmax_collapse s
    (fun k => (∑ e : Fin 64, q (ix4 (0 : Fin 1) h s e) * kk (ix4 (0 : Fin 1) h k e)) * (1 / 8))
    (fun k => v (ix4 (0 : Fin 1) h k d))

end Cert.BlockAttn

end
-- ==== Proof.FiniteInputs.lean ====
/-
  From the stated precondition on the three argument arrays (every entry has absolute value below +∞) to:
  every entry is a real number.
-/
import proofs.«118906_j13932873908639_2_alg».proof.Pre_finite_inputs
import proofs.«118906_j13932873908639_2_alg».proof.Proof.Gen.Pre_finite_inputs
import Idealize.ShloMosaic.Lib.ReduceAll
import Idealize.ShloMosaic.Lib.ValueIdx
import Idealize.ShloMosaic.PureOps.Ideal

noncomputable section

namespace Cert.BlockAttn

open Idealize.ShloMosaic Idealize.ShloMosaic.ValueIdx

/-- The shape of a scalar has exactly one index. -/
instance subsingleton_scalarIdx : Subsingleton Cert.Pre_finite_inputs.S_.Idx :=
  ⟨fun a b => funext fun d => d.elim0⟩

/-- An extended real whose absolute value `max x (-x)` lies strictly below the value of the bit pattern of +∞
    is a real: neither infinity passes the comparison. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  unfold Ideal.cmp at hx
  induction x using EReal.rec with
  | bot => simp at hx
  | coe r => exact ⟨r, rfl⟩
  | top => simp at hx

theorem finite_of_pre (a0 a1 a2 : FVec Ideal Cert.Pre_finite_inputs.S1x16x4096x64 .f32)
    (hpre : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h := congrFun hpre ValueIdx.ix0
  dsimp only [Cert.Pre_finite_inputs.fn, Idealize.ShloMosaic.andi] at h
  -- the conjunction of the three "all" tests
  obtain ⟨h01, h2⟩ := IntOp.andi_eq_one.1 h
  obtain ⟨h0, h1⟩ := IntOp.andi_eq_one.1 h01
  -- each "all" test gives the comparison at every index
  have e0 := fun i => Host.reduce_andi_all _ _ _ _ _ h0 i
  have e1 := fun i => Host.reduce_andi_all _ _ _ _ _ h1 i
  have e2 := fun i => Host.reduce_andi_all _ _ _ _ _ h2 i
  exact ⟨fun i => real_of_abs_lt_inf (a0 i) (e0 i), fun i => real_of_abs_lt_inf (a1 i) (e1 i),
    fun i => real_of_abs_lt_inf (a2 i) (e2 i)⟩

end Cert.BlockAttn

end
-- ==== Proof.lean ====
/-
  Block-diagonal attention: a kernel that works block by block against the full-row softmax.

  Both programs take Q, K, V of shape [1, 16, 4096, 64]. A score is the feature dot product of a query and a key
  position times 1/8 (the kernel spells 0.125, the reference 1 / sqrt 64); the 4096 positions fall into 64 blocks of
  64, and a score across two different blocks is multiplied by zero before the softmax.

  The reference takes the softmax of each row of masked scores over all 4096 key positions and contracts it with V.
  The kernel, one head per grid point, uses only each query's own block: with m the larger of the block's largest
  score and 0, every one of the 4032 key positions outside the block has masked score 0 and so weight exp (0 - m);
  the normaliser is the block's sum of exponentials plus 4032 exp (0 - m), and the numerator is the block's
  exponentials against its rows of V plus exp (0 - m) times (the column sum of V over all positions minus the column
  sum over the block).

  The two are the same function of real arguments: the row maximum of the masked scores is m (a row always meets a
  zero outside its block), the sums over 4096 positions split into the block and its complement, and a quotient
  leaves a finite sum of reals. That the arguments are real is the precondition; it is used, since the laws that
  split the sums and move the quotient fail at the infinities.

  The kernel's side (what a grid point's body leaves, read at an index; the sixteen blocks tiling the result) is in
  Proof/KerBlock.lean and Proof/KerArray.lean; the reference's run and its result read at an index in
  Proof/RefRun.lean, Proof/RefMask.lean, Proof/RefDots.lean and Proof/RefRead.lean; the identity over the reals in
  Proof/SoftmaxCollapse.lean; the precondition decoded in Proof/FiniteInputs.lean. The idealization rewrote no
  operation, so that conjunct is trivial.
-/
import proofs.«118906_j13932873908639_2_alg».proof.Defs
import proofs.«118906_j13932873908639_2_alg».proof.Proof.Gen.Kernel
import proofs.«118906_j13932873908639_2_alg».proof.Proof.Gen.Kernel.Skeleton
import proofs.«118906_j13932873908639_2_alg».proof.Proof.Gen.Kernel.Launch
import proofs.«118906_j13932873908639_2_alg».proof.Proof.Gen.Kernel.Points
import proofs.«118906_j13932873908639_2_alg».proof.Proof.Gen.Kernel.Frame
import proofs.«118906_j13932873908639_2_alg».proof.Proof.Gen.KernelIdeal
import proofs.«118906_j13932873908639_2_alg».proof.Proof.Gen.KernelIdeal.Skeleton
import proofs.«118906_j13932873908639_2_alg».proof.Proof.Gen.KernelIdeal.Launch
import proofs.«118906_j13932873908639_2_alg».proof.Proof.Gen.KernelIdeal.Points
import proofs.«118906_j13932873908639_2_alg».proof.Proof.Gen.KernelIdeal.Frame
import proofs.«118906_j13932873908639_2_alg».proof.Proof.Gen.KernelIdeal.Value
import proofs.«118906_j13932873908639_2_alg».proof.Proof.Gen.ReferenceIdeal
import proofs.«118906_j13932873908639_2_alg».proof.Proof.Gen.Pre_finite_inputs
import proofs.«118906_j13932873908639_2_alg».proof.Proof.KerArray
import proofs.«118906_j13932873908639_2_alg».proof.Proof.RefRead
import proofs.«118906_j13932873908639_2_alg».proof.Proof.SoftmaxCollapse
import proofs.«118906_j13932873908639_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Attn.run m ρ)

/-- The idealization rewrote nothing. -/
theorem preserves : Cert.preserves_Kernel_KernelIdeal := trivial

/-- From arguments that agree and are real, the kernel's result array is the block form of the attention output and
    the reference's the full-row form; the two forms are one function of real arguments. -/
theorem algebraic : Cert.algebraic_KernelIdeal_ReferenceIdeal := by
  intro m ρ m' ρ' hpre hagree
  refine ⟨fun c => Cert.BlockAttn.blockArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Attn.run m' ρ')
  rw [(hagree c).1, (hagree c).2.1, (hagree c).2.2]
  obtain ⟨hQ, hK, hV⟩ := Cert.BlockAttn.finite_of_pre _ _ _ (hpre c)
  funext i
  exact (Cert.BlockAttn.blockOut_eq_fullOut _ _ _ hQ hK hV (i 1) (i 2) (i 3)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
